-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x1024 .f32) (main_arg1 : FVec F S3072x1024 .f32) (main_arg2 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S1024x1024 : Shape := ⟨2, ![1024, 1024]⟩
abbrev S1x1024 : Shape := ⟨2, ![1, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x256 : Shape := ⟨2, ![1, 256]⟩
abbrev S1x256x1 : Shape := ⟨3, ![1, 256, 1]⟩

abbrev nBuf : Space → Nat
  | .hbm => 14
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S3072x1024, .bf16⟩
  | .hbm, ⟨4, _⟩ => ⟨S1x3072, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S4x2048x1024, .bf16⟩
  | .hbm, ⟨10, _⟩ => ⟨S4x2048x1024, .bf16⟩
  | .hbm, ⟨11, _⟩ => ⟨S4x2048x1024, .bf16⟩
  | .hbm, ⟨12, _⟩ => ⟨S4x2048x1024, .f32⟩
  | .hbm, ⟨13, _⟩ => ⟨S4x2048x2048, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x2048, .f32⟩
  | .local _ .vmem, ⟨19, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S1024x1024_0_0 : ∀ a, (![0, 0] : Fin 2 → Nat) a + S1024x1024.size a ≤ S3072x1024.size a
  h_S1024x1024 : 0 < S1024x1024.numel
  shapeCasts_S1024x1024_S1024x1024 : S1024x1024.ShapeCasts S1024x1024
  inb_S3072x1024_S1024x1024_1024_0 : ∀ a, (![1024, 0] : Fin 2 → Nat) a + S1024x1024.size a ≤ S3072x1024.size a
  inb_S3072x1024_S1024x1024_2048_0 : ∀ a, (![2048, 0] : Fin 2 → Nat) a + S1024x1024.size a ≤ S3072x1024.size a
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  inb_S1x3072_S1x1024_0_1024 : ∀ a, (![0, 1024] : Fin 2 → Nat) a + S1x1024.size a ≤ S1x3072.size a
  inb_S1x3072_S1x1024_0_2048 : ∀ a, (![0, 2048] : Fin 2 → Nat) a + S1x1024.size a ≤ S1x3072.size a
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S1x256x1024 : S1x256x1024.ShapeCasts S1x256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x256x2048_S1x256 : S1x256x2048.Reduces [2] S1x256
  shapeCasts_S1x256_S1x256x1 : S1x256.ShapeCasts S1x256x1
  broadcasts_S1x256x1_S1x256x2048 : S1x256x1.Broadcasts S1x256x2048
  inb_S1x256x2048_S1x256x2048_0_0_0 : ∀ a, (![0, 0, 0] : Fin 3 → Nat) a + S1x256x2048.size a ≤ S1x256x2048.size a
  h_S1x256x2048 : 0 < S1x256x2048.numel
  dot_S512x1024_S1024x1024_S512x1024_1_1_0_0_n_n_wf : DotDims.WF S512x1024 S1024x1024 S512x1024 [1] [1] [0] [0] [] []
  dot_S1x256x1024_S1x2048x1024_S1x256x2048_2_2_1_1_0_0_wf : DotDims.WF S1x256x1024 S1x2048x1024 S1x256x2048 [2] [2] [1] [1] [0] [0]
  dot_S1x256x2048_S1x2048x1024_S1x256x1024_2_1_1_2_0_0_wf : DotDims.WF S1x256x2048 S1x2048x1024 S1x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x2048.size a ≤ S4x2048x2048.size a
  hwx1_4 : ∀ i : grid1.Coords, EltTy.bits .f32 = 32 ∨ (Rect.block (s := S4x2048x2048) S1x256x2048.size (cc1_transform_4 i) (hinb1_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1x256x1024_S1x2048x1024_S1x256x2048_2_2_1_1_0_0 : DotDims S1x256x1024 S1x2048x1024 S1x256x2048 where
  lhsContracting := [2]
  rhsContracting := [2]
  lhsNonContracting := [1]
  rhsNonContracting := [1]
  lhsBatch := [0]
  rhsBatch := [0]
  wf := dot_S1x256x1024_S1x2048x1024_S1x256x2048_2_2_1_1_0_0_wf
def dot_S1x256x2048_S1x2048x1024_S1x256x1024_2_1_1_2_0_0 : DotDims S1x256x2048 S1x2048x1024 S1x256x1024 where
  lhsContracting := [2]
  rhsContracting := [1]
  lhsNonContracting := [1]
  rhsNonContracting := [2]
  lhsBatch := [0]
  rhsBatch := [0]
  wf := dot_S1x256x2048_S1x2048x1024_S1x256x1024_2_1_1_2_0_0_wf

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_0) S1x256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_1) S1x256x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S4x2048x3072 : Shape := ⟨3, ![4, 2048, 3072]⟩
abbrev S1x1x3072 : Shape := ⟨3, ![1, 1, 3072]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S4x2048x3072, .f32⟩
  | .hbm, ⟨4, _⟩ => ⟨S1x1x3072, .f32⟩
  | .hbm, ⟨5, _⟩ => ⟨S4x2048x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S_, .f32⟩
  | .hbm, ⟨17, _⟩ => ⟨S4x2048, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S3072x1024_S4x2048x3072_2_1_01_0_n_n_wf : DotDims.WF S4x2048x1024 S3072x1024 S4x2048x3072 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The kernel program's run with its two results named.

  The program is two kernel launches among host reshapes. Every weakly fair execution ends, nothing faulting, in a
  state whose unscoped buffers hold the contents left at the last boundary of the run: the second launch's output
  arrays at what its write-backs leave, every other buffer as the second launch found it, and so back to the launch
  memory for the three arguments. The generated frame states this of the arguments only; here the same launch over
  the same segments is read at the two result buffers as well.
-/
import proofs.«180135_j3083786519245_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the
    contents of the last boundary and the three arguments as launched. -/
theorem run_named : θ_run defs (onTc (τ := τ) (main (F := F))) ⟨m, fun _ => 0, ρ⟩ (fun r => ∀ c : Dev nD,
      r.2.mem ((c.tc : Thread nD τ).loc main_v7_0) = V4 m ρ c main_v7_0
      ∧ r.2.mem ((c.tc : Thread nD τ).loc main_v7_1) = V4 m ρ c main_v7_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7_0 (by decide)),
       h c _ (mem_uc main_v7_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun

end
-- ==== Proof.Spec.lean ====
/-
  The mathematics that both programs compute, on the extended reals, with no program in sight.

  From x : [4, 2048, 1024], W : [3072, 1024] and bias : [3072] three projections are taken, each from one third of the
  rows of W and of the entries of the bias:
      proj off (b, s, o) = (sum over d of x (b, s, d) * W (off + o, d)) + bias (off + o),     off = 0, 1024, 2048,
  called q, k and v. The score of query row i against key row j of batch b is the dot product of q (b, i, .) with
  k (b, j, .) times 2^-5, the weights of a query row are the softmax of its 2048 scores — the exponential of the score
  less the row's maximum, over the sum of those exponentials along the row — and the output row is the sum over the key
  rows j of weight (b, i, j) * v (b, j, .).

  The row maximum is the fold of max from the f32 word of minus infinity, and that word and the word of 2^-5 are kept
  as words: the same word on both sides is never evaluated. Two scalar facts join the two programs: a quotient by the
  word of 32 is the product with the word of 2^-5 on every extended real, and taking the maximum of a row's maximum
  with minus infinity once more changes nothing. No finiteness is used anywhere.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The shapes of the three arguments, of q / k / v / the output, and of the weights. -/
abbrev SX : Shape := ⟨3, ![4, 2048, 1024]⟩
abbrev SW : Shape := ⟨2, ![3072, 1024]⟩
abbrev SB : Shape := ⟨1, ![3072]⟩
abbrev SP : Shape := ⟨3, ![4, 2048, 2048]⟩

/-- The f32 word of minus infinity, as an extended real. -/
def negInf : EReal := Ideal.ofBits .f32 0xFF800000#32
/-- The f32 word of 2^-5 = 1/32, as an extended real. -/
def invScale : EReal := Ideal.ofBits .f32 0x3D000000#32

/-- A row's maximum: the fold of max from minus infinity. -/
def rowMax {n : Nat} (s : Fin n → EReal) : EReal := (Finset.univ : Finset (Fin n)).fold max negInf s
/-- The exponential of an entry less the row's maximum. -/
def rowExp {n : Nat} (s : Fin n → EReal) (j : Fin n) : EReal := Ideal.exp (s j - rowMax s)
/-- The softmax of a row at entry j. -/
def rowWeight {n : Nat} (s : Fin n → EReal) (j : Fin n) : EReal := Ideal.div (rowExp s j) (∑ k : Fin n, rowExp s k)

/-- One projection: rows off .. off + 1023 of W and the same entries of the bias. -/
def proj (off : Nat) (hoff : off + 1024 ≤ 3072) (x : SX.Idx → EReal) (W : SW.Idx → EReal) (bias : SB.Idx → EReal)
    (b : Fin 4) (s : Fin 2048) (o : Fin 1024) : EReal :=
  (∑ d : Fin 1024, x (ix3 b s d) * W (ix2 (⟨off + o.val, by have := o.isLt; omega⟩ : Fin 3072) d))
    + bias (ix1 (⟨off + o.val, by have := o.isLt; omega⟩ : Fin 3072))

/-- The scaled score of query row i against key row j. -/
def score (q k : Fin 4 → Fin 2048 → Fin 1024 → EReal) (b : Fin 4) (i j : Fin 2048) : EReal :=
  (∑ d : Fin 1024, q b i d * k b j d) * invScale
/-- The attention weight: the softmax over the key rows of the scores of query row i. -/
def weight (q k : Fin 4 → Fin 2048 → Fin 1024 → EReal) (b : Fin 4) (i j : Fin 2048) : EReal :=
  rowWeight (fun j' => score q k b i j') j
/-- The output: the weights of query row i against the value rows. -/
def outv (q k v : Fin 4 → Fin 2048 → Fin 1024 → EReal) (b : Fin 4) (i : Fin 2048) (d : Fin 1024) : EReal :=
  ∑ j : Fin 2048, weight q k b i j * v b j d

/-- q, k, v of the arguments. -/
def qOf (x : SX.Idx → EReal) (W : SW.Idx → EReal) (bias : SB.Idx → EReal) := proj 0 (by norm_num) x W bias
def kOf (x : SX.Idx → EReal) (W : SW.Idx → EReal) (bias : SB.Idx → EReal) := proj 1024 (by norm_num) x W bias
def vOf (x : SX.Idx → EReal) (W : SW.Idx → EReal) (bias : SB.Idx → EReal) := proj 2048 (by norm_num) x W bias

/-- The two results as whole arrays of the three arguments. -/
def weights (x : SX.Idx → EReal) (W : SW.Idx → EReal) (bias : SB.Idx → EReal) : SP.Idx → EReal :=
  fun i => weight (qOf x W bias) (kOf x W bias) (i 0) (i 1) (i 2)
def output (x : SX.Idx → EReal) (W : SW.Idx → EReal) (bias : SB.Idx → EReal) : SX.Idx → EReal :=
  fun i => outv (qOf x W bias) (kOf x W bias) (vOf x W bias) (i 0) (i 1) (i 2)

theorem weights_ix3 (x : SX.Idx → EReal) (W : SW.Idx → EReal) (bias : SB.Idx → EReal) (b : Fin 4) (i j : Fin 2048) :
    weights x W bias (ix3 b i j) = weight (qOf x W bias) (kOf x W bias) b i j := rfl
theorem output_ix3 (x : SX.Idx → EReal) (W : SW.Idx → EReal) (bias : SB.Idx → EReal) (b : Fin 4) (i : Fin 2048) (d : Fin 1024) :
    output x W bias (ix3 b i d) = outv (qOf x W bias) (kOf x W bias) (vOf x W bias) b i d := rfl

/-! ## The scalar facts -/

/-- The word 0x42000000 is 32. -/
theorem ofBits_32 : Ideal.ofBits .f32 0x42000000#32 = ((32 : ℝ) : EReal) := by
  simp [Ideal.ofBits, Ideal.ieee, -EReal.coe_mul]; norm_num

/-- The word 0x3D000000 is 1/32. -/
theorem invScale_eq : invScale = ((1 / 32 : ℝ) : EReal) := by
  unfold invScale
  simp [Ideal.ofBits, Ideal.ieee, -EReal.coe_mul]; norm_num

/-- A quotient by 32 is the product with 1/32, on every extended real. -/
theorem div_32 (s : EReal) : Ideal.div s (Ideal.ofBits .f32 0x42000000#32) = s * invScale := by
  rw [ofBits_32, invScale_eq]
  exact Ideal.div_coe (by norm_num : (32 : ℝ) ≠ 0) s

/-- The maximum of minus infinity and a row's maximum is the row's maximum: the fold starts from minus infinity. -/
theorem max_negInf_rowMax {n : Nat} (s : Fin n → EReal) : max negInf (rowMax s) = rowMax s :=
  max_eq_right ((Finset.le_fold_max negInf).2 (Or.inl le_rfl))

/-- The zero word is zero, so a sum from it is the sum. -/
theorem zero_word_add (s : EReal) : Ideal.ofBits .f32 0x00000000#32 + s = s := by
  rw [Ideal.ofBits_zero_f32, zero_add]

end Cert.AttnSpec

end
-- ==== Proof.ProjBody.lean ====
/-
  The projection kernel's body read at an index, on the extended reals.

  The body holds a block of 512 rows of x, x0 : [512, 1024], and three times a block of 1024 rows of W, w : [1024, 1024],
  with the matching 1024 entries of the bias as a row, bias : [1, 1024]. Each of its three stored values is, at (r, o),
      (sum over d of x0 (r, d) * w (o, d)) + bias (0, o):
  the product contracts the last axis of both operands (x times the transpose of w), the bias row is spread over the
  512 rows, and the changes of float format are the identity.
-/
import proofs.«180135_j3083786519245_2_alg».proof.Proof.Gen.KernelIdeal.Skeleton
import proofs.«180135_j3083786519245_2_alg».proof.Proof.Spec
import Idealize.ShloMosaic.Lib.ValueIdx
import Idealize.ShloMosaic.Lib.Pipeline.Value
import Idealize.ShloMosaic.PureOps.Ideal.Laws

noncomputable section

namespace Cert.KernelIdeal.ProjBody

open Idealize.ShloMosaic Idealize.ShloMosaic.TcCoe Idealize.ShloMosaic.ValueIdx Idealize.SL.Sem
open Cert.KernelIdeal Cert.KernelIdeal.Gen Cert.AttnSpec

/-! ## The product's operand indices, coordinate by coordinate -/

theorem lhs_xw_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_xw_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_xw_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_xw_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of the row block with the transposed weight block, into zero, at (r, o): the dot product of row r of
    the first with row o of the second. -/
theorem xw_apply (a : FVec Ideal S512x1024 .bf16) (b : FVec Ideal S1024x1024 .bf16) (r : Fin 512) (o : Fin 1024) :
    matmul dot_S512x1024_S1024x1024_S512x1024_1_1_0_0_n_n none a b (constant (F := Ideal) S512x1024 .f32 0x00000000#32) (ix2 r o)
      = ∑ k : Fin 1024, a (ix2 r k) * b (ix2 o k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r o) ((contrEquiv1 dot_S512x1024_S1024x1024_S512x1024_1_1_0_0_n_n 1024 rfl rfl).symm k) = ix2 r k := funext fun c => Fin.ext (by
    match c with
    | ⟨0, _⟩ => exact lhs_xw_0 _ _
    | ⟨1, _⟩ => exact (lhs_xw_1 _ _).trans hk)
  have er : dot_S512x1024_S1024x1024_S512x1024_1_1_0_0_n_n.rhsIdx (ix2 r o) ((contrEquiv1 dot_S512x1024_S1024x1024_S512x1024_1_1_0_0_n_n 1024 rfl rfl).symm k) = ix2 o k := funext fun c => Fin.ext (by
    match c with
    | ⟨0, _⟩ => exact rhs_xw_0 _ _
    | ⟨1, _⟩ => exact (rhs_xw_1 _ _).trans hk)
  rw [el, er]

/-- The bias row spread over the 512 rows reads, at (r, o), entry (0, o) of the row. -/
theorem biasRow_apply (v : FVec Ideal S1x1024 .f32) (hbc : S1x1024.Broadcasts S512x1024) (r : Fin 512) (o : Fin 1024) :
    broadcastTo S512x1024 v hbc (ix2 r o) = v (ix2 (0 : Fin 1) o) := by
  refine broadcastTo_apply v hbc (ix2 r o) (ix2 (0 : Fin 1) o) ?_
  intro a
  match a with
  | ⟨0, _⟩ => rfl
  | ⟨1, _⟩ => rfl

/-- The first stored value at (r, o). -/
theorem pay2_apply (x0 : Vec Ideal S512x1024 .f32) (w : Vec Ideal S1024x1024 .bf16) (bias : Vec Ideal S1x1024 .f32)
    (r : Fin 512) (o : Fin 1024) :
    k0_pay2 x0 w bias (ix2 r o) = (∑ d : Fin 1024, x0 (ix2 r d) * w (ix2 o d)) + bias (ix2 (0 : Fin 1) o) := by
  unfold k0_pay2 k0_pay1
  simp only [shapeCast_self]
  rw [truncf_apply, addf_apply, xw_apply, biasRow_apply]
  rfl

/-- The second and third stored values are the same function of their loads. -/
theorem pay3_eq (x0 : Vec Ideal S512x1024 .f32) (w : Vec Ideal S1024x1024 .bf16) (bias : Vec Ideal S1x1024 .f32) :
    k0_pay3 x0 w bias = k0_pay2 x0 w bias := rfl
theorem pay4_eq (x0 : Vec Ideal S512x1024 .f32) (w : Vec Ideal S1024x1024 .bf16) (bias : Vec Ideal S1x1024 .f32) :
    k0_pay4 x0 w bias = k0_pay2 x0 w bias := rfl

end Cert.KernelIdeal.ProjBody

end
-- ==== Proof.ProjRegion.lean ====
/-
  The projection launch as a whole: what its three output arrays hold when it ends, as functions of the three arrays
  it finds on entry — x as [8192, 1024] rows, W : [3072, 1024] and the bias as a row [1, 3072].

  The grid is 16 blocks of 512 rows. Point t reads rows 512 t .. 512 t + 511 of x and the whole of W and of the bias
  row, and writes back the same rows of each output; output number n (n = 0, 1, 2) takes rows 1024 n .. of W and the
  same entries of the bias. So each write-back is its block of the whole-array function
      (r, o)  |->  (sum over d of x (r, d) * W (1024 n + o, d)) + bias (0, 1024 n + o),
  and the 16 blocks tile each output.
-/
import proofs.«180135_j3083786519245_2_alg».proof.Proof.Gen.KernelIdeal.Frame
import proofs.«180135_j3083786519245_2_alg».proof.Proof.ProjBody

set_option maxRecDepth 16384

noncomputable section

namespace Cert.KernelIdeal.ProjRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

/-- One projection as a whole [8192, 1024] array: rows off .. of W, entries off .. of the bias row. -/
def GP (off : Nat) (hoff : off + 1024 ≤ 3072) (x : S8192x1024.Idx → EReal) (W : S3072x1024.Idx → EReal) (B : S1x3072.Idx → EReal) :
    S8192x1024.Idx → EReal :=
  fun i => (∑ d : Fin 1024, x (ix2 (i 0) d) * W (ix2 (⟨off + (i 1).val, by have := (i 1).isLt; simp at this; omega⟩ : Fin 3072) d))
    + B (ix2 (0 : Fin 1) (⟨off + (i 1).val, by have := (i 1).isLt; simp at this; omega⟩ : Fin 3072))

theorem GP_ix2 (off : Nat) (hoff : off + 1024 ≤ 3072) (x : S8192x1024.Idx → EReal) (W : S3072x1024.Idx → EReal) (B : S1x3072.Idx → EReal)
    (r : Fin 8192) (o : Fin 1024) :
    GP off hoff x W B (ix2 r o) = (∑ d : Fin 1024, x (ix2 r d) * W (ix2 (⟨off + o.val, by have := o.isLt; omega⟩ : Fin 3072) d))
      + B (ix2 (0 : Fin 1) (⟨off + o.val, by have := o.isLt; omega⟩ : Fin 3072)) := rfl

theorem hz2 : (![0, 0] : Fin 2 → Nat) = fun _ => 0 := funext fun a => by fin_cases a <;> rfl

/-- The printed index maps over the 16 points: the row windows are at block t, the weight and bias windows do not move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read where the point says -/

/-- The row block at point t, at (r, d): row 512 t + r of x. -/
theorem x_block (c : Dev nD) (t : Fin cfg0.N) (ht : t.val < 16) (r : Fin 512) (d : Fin 1024) :
    iblk0 V c 0 t (ix2 r d) = V c main_v2 (ix2 (⟨t.val * 512 + r.val, by have := r.isLt; omega⟩ : Fin 8192) d) := by
  show V c main_v2 (((cfg0.win 0).blk t).view.emb (ix2 r d)) = _
  obtain ⟨e0, e1, -⟩ := idx_facts t
  refine congrArg (V c main_v2) (funext fun a => Fin.ext ?_)
  match a with
  | ⟨0, _⟩ => show win0_0.index t (0 : Fin 2) * 512 + 1 * r.val = t.val * 512 + r.val; omega
  | ⟨1, _⟩ => show win0_0.index t (1 : Fin 2) * 1024 + 1 * d.val = d.val; omega

theorem w_block3 (c : Dev nD) (t : Fin cfg0.N) (o d : Fin 1024) :
    View.ld (iblk0 V c 1 t) r0_1 (ix2 o d) = V c main_v0 (ix2 (⟨0 + o.val, by have := o.isLt; omega⟩ : Fin 3072) d) := by
  show V c main_v0 (((cfg0.win 1).blk t).view.emb (r0_1.idx (ix2 o d))) = _
  obtain ⟨-, -, e0, e1, -⟩ := idx_facts t
  refine congrArg (V c main_v0) (funext fun a => Fin.ext ?_)
  match a with
  | ⟨0, _⟩ => show win0_1.index t (0 : Fin 2) * 3072 + 1 * (0 + 1 * o.val) = 0 + o.val; omega
  | ⟨1, _⟩ => show win0_1.index t (1 : Fin 2) * 1024 + 1 * (0 + 1 * d.val) = d.val; omega

theorem w_block4 (c : Dev nD) (t : Fin cfg0.N) (o d : Fin 1024) :
    View.ld (iblk0 V c 1 t) r0_2 (ix2 o d) = V c main_v0 (ix2 (⟨1024 + o.val, by have := o.isLt; omega⟩ : Fin 3072) d) := by
  show V c main_v0 (((cfg0.win 1).blk t).view.emb (r0_2.idx (ix2 o d))) = _
  obtain ⟨-, -, e0, e1, -⟩ := idx_facts t
  refine congrArg (V c main_v0) (funext fun a => Fin.ext ?_)
  match a with
  | ⟨0, _⟩ => show win0_1.index t (0 : Fin 2) * 3072 + 1 * (1024 + 1 * o.val) = 1024 + o.val; omega
  | ⟨1, _⟩ => show win0_1.index t (1 : Fin 2) * 1024 + 1 * (0 + 1 * d.val) = d.val; omega

theorem w_block5 (c : Dev nD) (t : Fin cfg0.N) (o d : Fin 1024) :
    View.ld (iblk0 V c 1 t) r0_3 (ix2 o d) = V c main_v0 (ix2 (⟨2048 + o.val, by have := o.isLt; omega⟩ : Fin 3072) d) := by
  show V c main_v0 (((cfg0.win 1).blk t).view.emb (r0_3.idx (ix2 o d))) = _
  obtain ⟨-, -, e0, e1, -⟩ := idx_facts t
  refine congrArg (V c main_v0) (funext fun a => Fin.ext ?_)
  match a with
  | ⟨0, _⟩ => show win0_1.index t (0 : Fin 2) * 3072 + 1 * (2048 + 1 * o.val) = 2048 + o.val; omega
  | ⟨1, _⟩ => show win0_1.index t (1 : Fin 2) * 1024 + 1 * (0 + 1 * d.val) = d.val; omega

theorem b_block3 (c : Dev nD) (t : Fin cfg0.N) (z : Fin 1) (o : Fin 1024) :
    View.ld (iblk0 V c 2 t) r0_4 (ix2 z o) = V c main_v1 (ix2 (0 : Fin 1) (⟨0 + o.val, by have := o.isLt; omega⟩ : Fin 3072)) := by
  show V c main_v1 (((cfg0.win 2).blk t).view.emb (r0_4.idx (ix2 z o))) = _
  obtain ⟨-, -, -, -, e0, e1, -⟩ := idx_facts t
  refine congrArg (V c main_v1) (funext fun a => Fin.ext ?_)
  match a with
  | ⟨0, _⟩ => show win0_2.index t (0 : Fin 2) * 1 + 1 * (0 + 1 * z.val) = 0; have := z.isLt; omega
  | ⟨1, _⟩ => show win0_2.index t (1 : Fin 2) * 3072 + 1 * (0 + 1 * o.val) = 0 + o.val; omega

theorem b_block4 (c : Dev nD) (t : Fin cfg0.N) (z : Fin 1) (o : Fin 1024) :
    View.ld (iblk0 V c 2 t) r0_5 (ix2 z o) = V c main_v1 (ix2 (0 : Fin 1) (⟨1024 + o.val, by have := o.isLt; omega⟩ : Fin 3072)) := by
  show V c main_v1 (((cfg0.win 2).blk t).view.emb (r0_5.idx (ix2 z o))) = _
  obtain ⟨-, -, -, -, e0, e1, -⟩ := idx_facts t
  refine congrArg (V c main_v1) (funext fun a => Fin.ext ?_)
  match a with
  | ⟨0, _⟩ => show win0_2.index t (0 : Fin 2) * 1 + 1 * (0 + 1 * z.val) = 0; have := z.isLt; omega
  | ⟨1, _⟩ => show win0_2.index t (1 : Fin 2) * 3072 + 1 * (1024 + 1 * o.val) = 1024 + o.val; omega

theorem b_block5 (c : Dev nD) (t : Fin cfg0.N) (z : Fin 1) (o : Fin 1024) :
    View.ld (iblk0 V c 2 t) r0_6 (ix2 z o) = V c main_v1 (ix2 (0 : Fin 1) (⟨2048 + o.val, by have := o.isLt; omega⟩ : Fin 3072)) := by
  show V c main_v1 (((cfg0.win 2).blk t).view.emb (r0_6.idx (ix2 z o))) = _
  obtain ⟨-, -, -, -, e0, e1, -⟩ := idx_facts t
  refine congrArg (V c main_v1) (funext fun a => Fin.ext ?_)
  match a with
  | ⟨0, _⟩ => show win0_2.index t (0 : Fin 2) * 1 + 1 * (0 + 1 * z.val) = 0; have := z.isLt; omega
  | ⟨1, _⟩ => show win0_2.index t (1 : Fin 2) * 3072 + 1 * (2048 + 1 * o.val) = 2048 + o.val; omega

/-! ## The body's value over blocks that are rows of x, W and the bias -/

/-- If the body's row block is rows 512 t .. of x, its weight block rows off .. of W and its bias row entries off .. of
    the bias, the stored value at the block index y is the projection at the array index i = (512 t + y 0, y 1). -/
theorem stored_at (off : Nat) (hoff : off + 1024 ≤ 3072) (x : S8192x1024.Idx → EReal) (W : S3072x1024.Idx → EReal) (B : S1x3072.Idx → EReal)
    (x0 : Vec Ideal S512x1024 .f32) (w : Vec Ideal S1024x1024 .bf16) (bias : Vec Ideal S1x1024 .f32) (t : Nat) (ht : t < 16)
    (h0 : ∀ (r : Fin 512) (d : Fin 1024), x0 (ix2 r d) = x (ix2 (⟨t * 512 + r.val, by have := r.isLt; omega⟩ : Fin 8192) d))
    (h1 : ∀ (o d : Fin 1024), w (ix2 o d) = W (ix2 (⟨off + o.val, by have := o.isLt; omega⟩ : Fin 3072) d))
    (h2 : ∀ (z : Fin 1) (o : Fin 1024), bias (ix2 z o) = B (ix2 (0 : Fin 1) (⟨off + o.val, by have := o.isLt; omega⟩ : Fin 3072)))
    (y : S512x1024.Idx) (i : S8192x1024.Idx) (hi0 : (i 0).val = t * 512 + (y 0).val) (hi1 : (i 1).val = (y 1).val) :
    k0_pay2 x0 w bias y = GP off hoff x W B i := by
  obtain ⟨r, o, rfl⟩ : ∃ (r : Fin 512) (o : Fin 1024), y = ix2 r o := ⟨y 0, y 1, eq_ix2 y⟩
  have hi : i = ix2 (⟨t * 512 + r.val, by have := r.isLt; omega⟩ : Fin 8192) o := funext fun a => Fin.ext (by
    match a with
    | ⟨0, _⟩ => exact hi0
    | ⟨1, _⟩ => exact hi1)
  rw [hi, ProjBody.pay2_apply, GP_ix2]
  simp only [h0, h1, h2]

/-! ## What a point writes back, and the arrays when the launch ends -/

/-- Point t writes back its block of the projection with offset 0. -/
theorem flushed3_eq (c : Dev nD) (t : Fin cfg0.N) :
    (dat0 V c).flushed 3 t = ((cfg0.win 3).blk t).view.read (Elt Ideal) (GP 0 (by norm_num) (V c main_v2) (V c main_v0) (V c main_v1)) := by
  have ht : t.val < 16 := t.isLt
  show (cfg0.win 3).cut (grid0.coords t) ((dat0 V c).after 3 t) = _
  rw [after0_3]
  unfold out0_3
  rw [View.canon_unit_zero hz2]
  simp only [View.ld_unit_zero (S := S512x1024) hz2]
  obtain ⟨-, -, -, -, -, -, e30, e31, e40, e41, e50, e51⟩ := idx_facts t
  funext y
  show k0_pay2 (iblk0 V c 0 t) (View.ld (iblk0 V c 1 t) r0_1) (View.ld (iblk0 V c 2 t) r0_4) y
    = GP 0 (by norm_num) (V c main_v2) (V c main_v0) (V c main_v1) (((cfg0.win 3).blk t).view.emb y)
  refine stored_at 0 (by norm_num) (V c main_v2) (V c main_v0) (V c main_v1) (iblk0 V c 0 t) _ _ t.val ht
    (x_block V c t ht) (w_block3 V c t) (b_block3 V c t) y _ ?_ ?_
  · show win0_3.index t (0 : Fin 2) * 512 + 1 * (y 0).val = t.val * 512 + (y 0).val
    omega
  · show win0_3.index t (1 : Fin 2) * 1024 + 1 * (y 1).val = (y 1).val
    omega

/-- Point t writes back its block of the projection with offset 1024. -/
theorem flushed4_eq (c : Dev nD) (t : Fin cfg0.N) :
    (dat0 V c).flushed 4 t = ((cfg0.win 4).blk t).view.read (Elt Ideal) (GP 1024 (by norm_num) (V c main_v2) (V c main_v0) (V c main_v1)) := by
  have ht : t.val < 16 := t.isLt
  show (cfg0.win 4).cut (grid0.coords t) ((dat0 V c).after 4 t) = _
  rw [after0_4]
  unfold out0_4
  rw [View.canon_unit_zero hz2]
  simp only [View.ld_unit_zero (S := S512x1024) hz2]
  obtain ⟨-, -, -, -, -, -, e30, e31, e40, e41, e50, e51⟩ := idx_facts t
  funext y
  show k0_pay3 (iblk0 V c 0 t) (View.ld (iblk0 V c 1 t) r0_2) (View.ld (iblk0 V c 2 t) r0_5) y
    = GP 1024 (by norm_num) (V c main_v2) (V c main_v0) (V c main_v1) (((cfg0.win 4).blk t).view.emb y)
  rw [ProjBody.pay3_eq]
  refine stored_at 1024 (by norm_num) (V c main_v2) (V c main_v0) (V c main_v1) (iblk0 V c 0 t) _ _ t.val ht
    (x_block V c t ht) (w_block4 V c t) (b_block4 V c t) y _ ?_ ?_
  · show win0_4.index t (0 : Fin 2) * 512 + 1 * (y 0).val = t.val * 512 + (y 0).val
    omega
  · show win0_4.index t (1 : Fin 2) * 1024 + 1 * (y 1).val = (y 1).val
    omega

/-- Point t writes back its block of the projection with offset 2048. -/
theorem flushed5_eq (c : Dev nD) (t : Fin cfg0.N) :
    (dat0 V c).flushed 5 t = ((cfg0.win 5).blk t).view.read (Elt Ideal) (GP 2048 (by norm_num) (V c main_v2) (V c main_v0) (V c main_v1)) := by
  have ht : t.val < 16 := t.isLt
  show (cfg0.win 5).cut (grid0.coords t) ((dat0 V c).after 5 t) = _
  rw [after0_5]
  unfold out0_5
  rw [View.canon_unit_zero hz2]
  simp only [View.ld_unit_zero (S := S512x1024) hz2]
  obtain ⟨-, -, -, -, -, -, e30, e31, e40, e41, e50, e51⟩ := idx_facts t
  funext y
  show k0_pay4 (iblk0 V c 0 t) (View.ld (iblk0 V c 1 t) r0_3) (View.ld (iblk0 V c 2 t) r0_6) y
    = GP 2048 (by norm_num) (V c main_v2) (V c main_v0) (V c main_v1) (((cfg0.win 5).blk t).view.emb y)
  rw [ProjBody.pay4_eq]
  refine stored_at 2048 (by norm_num) (V c main_v2) (V c main_v0) (V c main_v1) (iblk0 V c 0 t) _ _ t.val ht
    (x_block V c t ht) (w_block5 V c t) (b_block5 V c t) y _ ?_ ?_
  · show win0_5.index t (0 : Fin 2) * 512 + 1 * (y 0).val = t.val * 512 + (y 0).val
    omega
  · show win0_5.index t (1 : Fin 2) * 1024 + 1 * (y 1).val = (y 1).val
    omega

theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_0).slice (win0_3.rect t)).set ↔ _
  rw [View.set_slice_whole, Rect.mem_set_unit]
  exact Iff.rfl

theorem cover3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  refine ⟨(⟨(i 0).val / 512, by show _ < 16; omega⟩ : Fin cfg0.N), flush0_3 _, ?_⟩
  rw [mem_blk3]
  obtain ⟨-, -, -, -, -, -, e30, e31, e40, e41, e50, e51⟩ := idx_facts (⟨(i 0).val / 512, by show _ < 16; omega⟩ : Fin cfg0.N)
  intro a
  match a with
  | ⟨0, _⟩ =>
    show win0_3.index _ (0 : Fin 2) * 512 ≤ (i 0).val ∧ (i 0).val < win0_3.index _ (0 : Fin 2) * 512 + 512
    rw [e30]; show (i 0).val / 512 * 512 ≤ (i 0).val ∧ (i 0).val < (i 0).val / 512 * 512 + 512; omega
  | ⟨1, _⟩ =>
    show win0_3.index _ (1 : Fin 2) * 1024 ≤ (i 1).val ∧ (i 1).val < win0_3.index _ (1 : Fin 2) * 1024 + 1024
    rw [e31]; omega

theorem final3 (c : Dev nD) : (dat0 V c).arrAt 3 cfg0.N = GP 0 (by norm_num) (V c main_v2) (V c main_v0) (V c main_v1) :=
  (dat0 V c).arrAt_eq_of_cover 3 _ (fun t _ => flushed3_eq V c t) cover3

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_1).slice (win0_4.rect t)).set ↔ _
  rw [View.set_slice_whole, Rect.mem_set_unit]
  exact Iff.rfl

theorem cover4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  refine ⟨(⟨(i 0).val / 512, by show _ < 16; omega⟩ : Fin cfg0.N), flush0_4 _, ?_⟩
  rw [mem_blk4]
  obtain ⟨-, -, -, -, -, -, e30, e31, e40, e41, e50, e51⟩ := idx_facts (⟨(i 0).val / 512, by show _ < 16; omega⟩ : Fin cfg0.N)
  intro a
  match a with
  | ⟨0, _⟩ =>
    show win0_4.index _ (0 : Fin 2) * 512 ≤ (i 0).val ∧ (i 0).val < win0_4.index _ (0 : Fin 2) * 512 + 512
    rw [e40]; show (i 0).val / 512 * 512 ≤ (i 0).val ∧ (i 0).val < (i 0).val / 512 * 512 + 512; omega
  | ⟨1, _⟩ =>
    show win0_4.index _ (1 : Fin 2) * 1024 ≤ (i 1).val ∧ (i 1).val < win0_4.index _ (1 : Fin 2) * 1024 + 1024
    rw [e41]; omega

theorem final4 (c : Dev nD) : (dat0 V c).arrAt 4 cfg0.N = GP 1024 (by norm_num) (V c main_v2) (V c main_v0) (V c main_v1) :=
  (dat0 V c).arrAt_eq_of_cover 4 _ (fun t _ => flushed4_eq V c t) cover4

theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3_2).slice (win0_5.rect t)).set ↔ _
  rw [View.set_slice_whole, Rect.mem_set_unit]
  exact Iff.rfl

theorem cover5 (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  refine ⟨(⟨(i 0).val / 512, by show _ < 16; omega⟩ : Fin cfg0.N), flush0_5 _, ?_⟩
  rw [mem_blk5]
  obtain ⟨-, -, -, -, -, -, e30, e31, e40, e41, e50, e51⟩ := idx_facts (⟨(i 0).val / 512, by show _ < 16; omega⟩ : Fin cfg0.N)
  intro a
  match a with
  | ⟨0, _⟩ =>
    show win0_5.index _ (0 : Fin 2) * 512 ≤ (i 0).val ∧ (i 0).val < win0_5.index _ (0 : Fin 2) * 512 + 512
    rw [e50]; show (i 0).val / 512 * 512 ≤ (i 0).val ∧ (i 0).val < (i 0).val / 512 * 512 + 512; omega
  | ⟨1, _⟩ =>
    show win0_5.index _ (1 : Fin 2) * 1024 ≤ (i 1).val ∧ (i 1).val < win0_5.index _ (1 : Fin 2) * 1024 + 1024
    rw [e51]; omega

theorem final5 (c : Dev nD) : (dat0 V c).arrAt 5 cfg0.N = GP 2048 (by norm_num) (V c main_v2) (V c main_v0) (V c main_v1) :=
  (dat0 V c).arrAt_eq_of_cover 5 _ (fun t _ => flushed5_eq V c t) cover5

end Cert.KernelIdeal.ProjRegion

end
-- ==== Proof.AttnBody.lean ====
/-
  The attention kernel's body read at an index, on the extended reals.

  The body holds one block of 256 query rows of one batch, q : [1, 256, 1024], and all of that batch's key and value
  rows, k, v : [1, 2048, 1024]. Its first stored value, at (0, r, j), is the softmax weight of query row r against key
  row j: the scores are the dot products of q (0, r, .) with k (0, j', .) times the word of 2^-5, the row's maximum is a
  lane maximum from minus infinity, the exponentials are summed along the row from zero, and the weight is the quotient.
  Its second stored value, at (0, r, d), is the sum over the key rows j of that weight times v (0, j, d).
-/
import proofs.«180135_j3083786519245_2_alg».proof.Proof.Gen.KernelIdeal.Skeleton
import proofs.«180135_j3083786519245_2_alg».proof.Proof.Spec
import Idealize.ShloMosaic.Lib.ValueIdx
import Idealize.ShloMosaic.Lib.Pipeline.Value
import Idealize.ShloMosaic.PureOps.Ideal.Laws

noncomputable section

namespace Cert.KernelIdeal.AttnBody

open Idealize.ShloMosaic Idealize.ShloMosaic.TcCoe Idealize.ShloMosaic.ValueIdx Idealize.SL.Sem
open Cert.KernelIdeal Cert.KernelIdeal.Gen Cert.AttnSpec

/-! ## The two products' operand indices, coordinate by coordinate -/

theorem lhs_qk_0 (i : S1x256x2048.Idx) (q : dot_S1x256x1024_S1x2048x1024_S1x256x2048_2_2_1_1_0_0.contr.Idx) :
    (dot_S1x256x1024_S1x2048x1024_S1x256x2048_2_2_1_1_0_0.lhsIdx i q 0).val = (i 0).val := by
  unfold DotDims.lhsIdx
  rw [dif_pos (show (0 : Fin S1x256x1024.rank) ∈ dot_S1x256x1024_S1x2048x1024_S1x256x2048_2_2_1_1_0_0.lhsBatch by decide)]
  rfl
theorem lhs_qk_1 (i : S1x256x2048.Idx) (q : dot_S1x256x1024_S1x2048x1024_S1x256x2048_2_2_1_1_0_0.contr.Idx) :
    (dot_S1x256x1024_S1x2048x1024_S1x256x2048_2_2_1_1_0_0.lhsIdx i q 1).val = (i 1).val := by
  unfold DotDims.lhsIdx
  rw [dif_neg (show ¬(1 : Fin S1x256x1024.rank) ∈ dot_S1x256x1024_S1x2048x1024_S1x256x2048_2_2_1_1_0_0.lhsBatch by decide), dif_pos (show (1 : Fin S1x256x1024.rank) ∈ dot_S1x256x1024_S1x2048x1024_S1x256x2048_2_2_1_1_0_0.lhsNonContracting by decide)]
  rfl
theorem lhs_qk_2 (i : S1x256x2048.Idx) (q : dot_S1x256x1024_S1x2048x1024_S1x256x2048_2_2_1_1_0_0.contr.Idx) :
    (dot_S1x256x1024_S1x2048x1024_S1x256x2048_2_2_1_1_0_0.lhsIdx i q 2).val = (q ⟨0, by decide⟩).val :=
  dot_S1x256x1024_S1x2048x1024_S1x256x2048_2_2_1_1_0_0.lhsIdx_val_of_single rfl i q
theorem rhs_qk_0 (i : S1x256x2048.Idx) (q : dot_S1x256x1024_S1x2048x1024_S1x256x2048_2_2_1_1_0_0.contr.Idx) :
    (dot_S1x256x1024_S1x2048x1024_S1x256x2048_2_2_1_1_0_0.rhsIdx i q 0).val = (i 0).val := by
  unfold DotDims.rhsIdx
  rw [dif_pos (show (0 : Fin S1x2048x1024.rank) ∈ dot_S1x256x1024_S1x2048x1024_S1x256x2048_2_2_1_1_0_0.rhsBatch by decide)]
  rfl
theorem rhs_qk_1 (i : S1x256x2048.Idx) (q : dot_S1x256x1024_S1x2048x1024_S1x256x2048_2_2_1_1_0_0.contr.Idx) :
    (dot_S1x256x1024_S1x2048x1024_S1x256x2048_2_2_1_1_0_0.rhsIdx i q 1).val = (i 2).val := by
  unfold DotDims.rhsIdx
  rw [dif_neg (show ¬(1 : Fin S1x2048x1024.rank) ∈ dot_S1x256x1024_S1x2048x1024_S1x256x2048_2_2_1_1_0_0.rhsBatch by decide), dif_pos (show (1 : Fin S1x2048x1024.rank) ∈ dot_S1x256x1024_S1x2048x1024_S1x256x2048_2_2_1_1_0_0.rhsNonContracting by decide)]
  rfl
theorem rhs_qk_2 (i : S1x256x2048.Idx) (q : dot_S1x256x1024_S1x2048x1024_S1x256x2048_2_2_1_1_0_0.contr.Idx) :
    (dot_S1x256x1024_S1x2048x1024_S1x256x2048_2_2_1_1_0_0.rhsIdx i q 2).val = (q ⟨0, by decide⟩).val :=
  dot_S1x256x1024_S1x2048x1024_S1x256x2048_2_2_1_1_0_0.rhsIdx_val_of_single rfl i q
theorem lhs_pv_0 (i : S1x256x1024.Idx) (q : dot_S1x256x2048_S1x2048x1024_S1x256x1024_2_1_1_2_0_0.contr.Idx) :
    (dot_S1x256x2048_S1x2048x1024_S1x256x1024_2_1_1_2_0_0.lhsIdx i q 0).val = (i 0).val := by
  unfold DotDims.lhsIdx
  rw [dif_pos (show (0 : Fin S1x256x2048.rank) ∈ dot_S1x256x2048_S1x2048x1024_S1x256x1024_2_1_1_2_0_0.lhsBatch by decide)]
  rfl
theorem lhs_pv_1 (i : S1x256x1024.Idx) (q : dot_S1x256x2048_S1x2048x1024_S1x256x1024_2_1_1_2_0_0.contr.Idx) :
    (dot_S1x256x2048_S1x2048x1024_S1x256x1024_2_1_1_2_0_0.lhsIdx i q 1).val = (i 1).val := by
  unfold DotDims.lhsIdx
  rw [dif_neg (show ¬(1 : Fin S1x256x2048.rank) ∈ dot_S1x256x2048_S1x2048x1024_S1x256x1024_2_1_1_2_0_0.lhsBatch by decide), dif_pos (show (1 : Fin S1x256x2048.rank) ∈ dot_S1x256x2048_S1x2048x1024_S1x256x1024_2_1_1_2_0_0.lhsNonContracting by decide)]
  rfl
theorem lhs_pv_2 (i : S1x256x1024.Idx) (q : dot_S1x256x2048_S1x2048x1024_S1x256x1024_2_1_1_2_0_0.contr.Idx) :
    (dot_S1x256x2048_S1x2048x1024_S1x256x1024_2_1_1_2_0_0.lhsIdx i q 2).val = (q ⟨0, by decide⟩).val :=
  dot_S1x256x2048_S1x2048x1024_S1x256x1024_2_1_1_2_0_0.lhsIdx_val_of_single rfl i q
theorem rhs_pv_0 (i : S1x256x1024.Idx) (q : dot_S1x256x2048_S1x2048x1024_S1x256x1024_2_1_1_2_0_0.contr.Idx) :
    (dot_S1x256x2048_S1x2048x1024_S1x256x1024_2_1_1_2_0_0.rhsIdx i q 0).val = (i 0).val := by
  unfold DotDims.rhsIdx
  rw [dif_pos (show (0 : Fin S1x2048x1024.rank) ∈ dot_S1x256x2048_S1x2048x1024_S1x256x1024_2_1_1_2_0_0.rhsBatch by decide)]
  rfl
theorem rhs_pv_1 (i : S1x256x1024.Idx) (q : dot_S1x256x2048_S1x2048x1024_S1x256x1024_2_1_1_2_0_0.contr.Idx) :
    (dot_S1x256x2048_S1x2048x1024_S1x256x1024_2_1_1_2_0_0.rhsIdx i q 1).val = (q ⟨0, by decide⟩).val :=
  dot_S1x256x2048_S1x2048x1024_S1x256x1024_2_1_1_2_0_0.rhsIdx_val_of_single rfl i q
theorem rhs_pv_2 (i : S1x256x1024.Idx) (q : dot_S1x256x2048_S1x2048x1024_S1x256x1024_2_1_1_2_0_0.contr.Idx) :
    (dot_S1x256x2048_S1x2048x1024_S1x256x1024_2_1_1_2_0_0.rhsIdx i q 2).val = (i 2).val := by
  unfold DotDims.rhsIdx
  rw [dif_neg (show ¬(2 : Fin S1x2048x1024.rank) ∈ dot_S1x256x2048_S1x2048x1024_S1x256x1024_2_1_1_2_0_0.rhsBatch by decide), dif_pos (show (2 : Fin S1x2048x1024.rank) ∈ dot_S1x256x2048_S1x2048x1024_S1x256x1024_2_1_1_2_0_0.rhsNonContracting by decide)]
  rfl

/-- The product of the query block with the transposed key rows, into zero, at (z, r, j): the dot product of query row
    r with key row j. -/
theorem qk_apply (a : FVec Ideal S1x256x1024 .bf16) (b : FVec Ideal S1x2048x1024 .bf16) (z : Fin 1) (r : Fin 256) (j : Fin 2048) :
    matmul dot_S1x256x1024_S1x2048x1024_S1x256x2048_2_2_1_1_0_0 none a b (constant (F := Ideal) S1x256x2048 .f32 0x00000000#32) (ix3 z r j)
      = ∑ k : Fin 1024, a (ix3 z r k) * b (ix3 z j k) := by
  simp only [matmul]
  rw [Ideal.matmul_constant_zero_apply, ← Equiv.sum_comp (contrEquiv1 dot_S1x256x1024_S1x2048x1024_S1x256x2048_2_2_1_1_0_0 1024 rfl rfl).symm]
  refine Finset.sum_congr rfl fun k _ => ?_
  have hk := contrEquiv1_symm_val dot_S1x256x1024_S1x2048x1024_S1x256x2048_2_2_1_1_0_0 1024 rfl rfl k
  have el : dot_S1x256x1024_S1x2048x1024_S1x256x2048_2_2_1_1_0_0.lhsIdx (ix3 z r j) ((contrEquiv1 dot_S1x256x1024_S1x2048x1024_S1x256x2048_2_2_1_1_0_0 1024 rfl rfl).symm k) = ix3 z r k := funext fun c => Fin.ext (by
    match c with
    | ⟨0, _⟩ => exact lhs_qk_0 _ _
    | ⟨1, _⟩ => exact lhs_qk_1 _ _
    | ⟨2, _⟩ => exact (lhs_qk_2 _ _).trans hk)
  have er : dot_S1x256x1024_S1x2048x1024_S1x256x2048_2_2_1_1_0_0.rhsIdx (ix3 z r j) ((contrEquiv1 dot_S1x256x1024_S1x2048x1024_S1x256x2048_2_2_1_1_0_0 1024 rfl rfl).symm k) = ix3 z j k := funext fun c => Fin.ext (by
    match c with
    | ⟨0, _⟩ => exact rhs_qk_0 _ _
    | ⟨1, _⟩ => exact rhs_qk_1 _ _
    | ⟨2, _⟩ => exact (rhs_qk_2 _ _).trans hk)
  rw [el, er]

/-- The product of the weights with the value rows, into zero, at (z, r, d): the sum over the key rows k of the weight
    at (z, r, k) times value row k at d. -/
theorem pv_apply (a : FVec Ideal S1x256x2048 .bf16) (b : FVec Ideal S1x2048x1024 .bf16) (z : Fin 1) (r : Fin 256) (d : Fin 1024) :
    matmul dot_S1x256x2048_S1x2048x1024_S1x256x1024_2_1_1_2_0_0 none a b (constant (F := Ideal) S1x256x1024 .f32 0x00000000#32) (ix3 z r d)
      = ∑ k : Fin 2048, a (ix3 z r k) * b (ix3 z k d) := by
  simp only [matmul]
  rw [Ideal.matmul_constant_zero_apply, ← Equiv.sum_comp (contrEquiv1 dot_S1x256x2048_S1x2048x1024_S1x256x1024_2_1_1_2_0_0 2048 rfl rfl).symm]
  refine Finset.sum_congr rfl fun k _ => ?_
  have hk := contrEquiv1_symm_val dot_S1x256x2048_S1x2048x1024_S1x256x1024_2_1_1_2_0_0 2048 rfl rfl k
  have el : dot_S1x256x2048_S1x2048x1024_S1x256x1024_2_1_1_2_0_0.lhsIdx (ix3 z r d) ((contrEquiv1 dot_S1x256x2048_S1x2048x1024_S1x256x1024_2_1_1_2_0_0 2048 rfl rfl).symm k) = ix3 z r k := funext fun c => Fin.ext (by
    match c with
    | ⟨0, _⟩ => exact lhs_pv_0 _ _
    | ⟨1, _⟩ => exact lhs_pv_1 _ _
    | ⟨2, _⟩ => exact (lhs_pv_2 _ _).trans hk)
  have er : dot_S1x256x2048_S1x2048x1024_S1x256x1024_2_1_1_2_0_0.rhsIdx (ix3 z r d) ((contrEquiv1 dot_S1x256x2048_S1x2048x1024_S1x256x1024_2_1_1_2_0_0 2048 rfl rfl).symm k) = ix3 z k d := funext fun c => Fin.ext (by
    match c with
    | ⟨0, _⟩ => exact rhs_pv_0 _ _
    | ⟨1, _⟩ => exact (rhs_pv_1 _ _).trans hk
    | ⟨2, _⟩ => exact rhs_pv_2 _ _)
  rw [el, er]

/-! ## The lane reductions and the keepdims column -/

/-- The reduced index (z, r) with lane k put back is (z, r, k). -/
theorem lift_zr (h : S1x256x2048.Reduces [2] S1x256) (z : Fin 1) (r : Fin 256) (k : Fin (S1x256x2048.size 2)) :
    h.lift (ix2 z r) k = ix3 z r (⟨k.val, k.isLt⟩ : Fin 2048) := by
  funext c; apply Fin.ext
  fin_cases c <;> rfl

/-- The lane maximum from minus infinity at (z, r) is the maximum of row (z, r). -/
theorem laneMax_apply (s : FVec Ideal S1x256x2048 .f32) (hR : S1x256x2048.Reduces [2] S1x256) (hφ : FKind.Formats .f32)
    (hacc : (0xFF800000#32 : BitVec 32) = FKind.maximumf.neutral .f32 hφ) (z : Fin 1) (r : Fin 256) :
    multiReduction .maximumf [2] S1x256 s 0xFF800000#32 hR hφ hacc (ix2 z r)
      = rowMax (fun j : Fin 2048 => s (ix3 z r j)) := by
  refine (Ideal.multiReduction_maximumf_single s _ hR hφ hacc (ix2 z r)).trans ?_
  have hf : (s ∘ hR.lift (ix2 z r)) = fun k : Fin 2048 => s (ix3 z r k) :=
    funext fun k => congrArg s (lift_zr hR z r k)
  rw [hf]; rfl

/-- The lane sum from zero at (z, r) is the sum of row (z, r). -/
theorem laneSum_apply (s : FVec Ideal S1x256x2048 .f32) (hR : S1x256x2048.Reduces [2] S1x256) (hφ : FKind.Formats .f32)
    (hacc : (0x00000000#32 : BitVec 32) = FKind.add.neutral .f32 hφ) (z : Fin 1) (r : Fin 256) :
    multiReduction .add [2] S1x256 s 0x00000000#32 hR hφ hacc (ix2 z r)
      = ∑ j : Fin 2048, s (ix3 z r j) := by
  refine (Ideal.multiReduction_add_single s _ hR hφ hacc (ix2 z r)).trans ?_
  exact Finset.sum_congr rfl fun k _ => congrArg s (lift_zr hR z r k)

/-- A [1, 256] vector cast to a [1, 256, 1] column and spread over the 2048 lanes reads, at (z, r, j), entry (z, r). -/
theorem column_apply (v : FVec Ideal S1x256 .f32) (hsc : S1x256.ShapeCasts S1x256x1) (hbc : S1x256x1.Broadcasts S1x256x2048)
    (z : Fin 1) (r : Fin 256) (j : Fin 2048) :
    broadcastTo S1x256x2048 (shapeCast S1x256x1 v hsc) hbc (ix3 z r j) = v (ix2 z r) := by
  have hz : z.val = 0 := by have := z.isLt; omega
  refine (broadcastTo_apply _ hbc (ix3 z r j) (ix3 z r (0 : Fin 1)) ?_).trans ?_
  · intro a
    match a with
    | ⟨0, _⟩ => exact hz
    | ⟨1, _⟩ => rfl
    | ⟨2, _⟩ => rfl
  · refine shapeCast_apply v hsc (ix3 z r (0 : Fin 1)) (ix2 z r) ?_
    rw [Shape.rowMajor_val_two, Shape.rowMajor_val_three]
    show z.val * 256 + r.val = (z.val * 256 + r.val) * 1 + 0
    omega

/-- The softmax of a block of scores as the body computes it — lane maximum, exponential of the difference, lane sum,
    quotient — read at (z, r, j): the softmax of row (z, r) at entry j. -/
theorem softmax_block (S : FVec Ideal S1x256x2048 .f32) (hR : S1x256x2048.Reduces [2] S1x256) (hφ : FKind.Formats .f32)
    (hm : (0xFF800000#32 : BitVec 32) = FKind.maximumf.neutral .f32 hφ) (ha : (0x00000000#32 : BitVec 32) = FKind.add.neutral .f32 hφ)
    (hsc : S1x256.ShapeCasts S1x256x1) (hbc : S1x256x1.Broadcasts S1x256x2048) (z : Fin 1) (r : Fin 256) (j : Fin 2048) :
    divf (exp (subf S (broadcastTo S1x256x2048 (shapeCast S1x256x1 (multiReduction .maximumf [2] S1x256 S 0xFF800000#32 hR hφ hm) hsc) hbc)))
        (broadcastTo S1x256x2048 (shapeCast S1x256x1 (multiReduction .add [2] S1x256
          (exp (subf S (broadcastTo S1x256x2048 (shapeCast S1x256x1 (multiReduction .maximumf [2] S1x256 S 0xFF800000#32 hR hφ hm) hsc) hbc)))
          0x00000000#32 hR hφ ha) hsc) hbc) (ix3 z r j)
      = rowWeight (fun j' : Fin 2048 => S (ix3 z r j')) j := by
  have hE : ∀ j' : Fin 2048,
      exp (subf S (broadcastTo S1x256x2048 (shapeCast S1x256x1 (multiReduction .maximumf [2] S1x256 S 0xFF800000#32 hR hφ hm) hsc) hbc)) (ix3 z r j')
        = rowExp (fun j'' : Fin 2048 => S (ix3 z r j'')) j' := fun j' => by
    show Ideal.exp (S (ix3 z r j') - broadcastTo S1x256x2048 (shapeCast S1x256x1 (multiReduction .maximumf [2] S1x256 S 0xFF800000#32 hR hφ hm) hsc) hbc (ix3 z r j')) = _
    rw [column_apply, laneMax_apply]; rfl
  rw [divf_apply, column_apply, laneSum_apply, hE]
  unfold rowWeight
  exact congrArg _ (Finset.sum_congr rfl fun k _ => hE k)

/-! ## The two stored values -/

/-- The weights stored by the body, at (z, r, j): the softmax over the key rows of the scaled scores of query row r. -/
theorem pay1_apply (x0 : Vec Ideal S1x256x1024 .bf16) (x1 : Vec Ideal S1x2048x1024 .bf16) (z : Fin 1) (r : Fin 256) (j : Fin 2048) :
    k1_pay1 x0 x1 (ix3 z r j)
      = rowWeight (fun j' : Fin 2048 => (∑ d : Fin 1024, x0 (ix3 z r d) * x1 (ix3 z j' d)) * invScale) j := by
  unfold k1_pay1
  simp only [shapeCast_self]
  refine (softmax_block _ _ _ _ _ _ _ z r j).trans ?_
  refine congrArg (fun s => rowWeight s j) (funext fun j' => ?_)
  rw [mulf_apply, qk_apply]; rfl

/-- The output stored by the body, at (z, r, d): the sum over the key rows j of the weight at (z, r, j) times value row
    j at d. -/
theorem pay2_apply (x0 : Vec Ideal S1x256x1024 .bf16) (x1 : Vec Ideal S1x2048x1024 .bf16) (x2 : Vec Ideal S1x2048x1024 .bf16)
    (z : Fin 1) (r : Fin 256) (d : Fin 1024) :
    k1_pay2 x0 x1 x2 (ix3 z r d)
      = ∑ j : Fin 2048, rowWeight (fun j' : Fin 2048 => (∑ e : Fin 1024, x0 (ix3 z r e) * x1 (ix3 z j' e)) * invScale) j * x2 (ix3 z j d) := by
  unfold k1_pay2
  simp only [shapeCast_self]
  refine (pv_apply _ _ z r d).trans ?_
  refine Finset.sum_congr rfl fun k _ => ?_
  rw [truncf_apply, pay1_apply]

end Cert.KernelIdeal.AttnBody

end
-- ==== Proof.AttnRegion.lean ====
/-
  The attention launch as a whole: what its two output arrays hold when it ends, as functions of the three arrays
  q, k, v : [4, 2048, 1024] it finds on entry.

  The grid is 4 batches by 8 blocks of 256 query rows. Point t = (b, u) reads query rows 256 u .. 256 u + 255 of batch
  b and all key and value rows of batch b, and writes back rows 256 u .. 256 u + 255 of batch b of both outputs. The
  body's stored values are the softmax weights and their product with the value rows, so each write-back is its block
  of one whole-array function, and the 32 blocks tile each output: the weights array ends at
  weight q k (b, i, j) and the output array at the sum over j of weight q k (b, i, j) * v (b, j, d).
-/
import proofs.«180135_j3083786519245_2_alg».proof.Proof.Gen.KernelIdeal.Frame
import proofs.«180135_j3083786519245_2_alg».proof.Proof.AttnBody

set_option maxRecDepth 16384

noncomputable section

namespace Cert.KernelIdeal.AttnRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.AttnSpec

variable (V : (c : Dev nD) → (b : Ref sig .tc) → Buf (Elt Ideal) ((c : Thread nD τ).loc b))

/-- A [4, 2048, 1024] array by its coordinates. -/
def byCoords (A : S4x2048x1024.Idx → EReal) : Fin 4 → Fin 2048 → Fin 1024 → EReal := fun b i d => A (ix3 b i d)

/-- The weights array and the output array as functions of q, k, v. -/
def GW (q k : S4x2048x1024.Idx → EReal) : S4x2048x2048.Idx → EReal :=
  fun i => weight (byCoords q) (byCoords k) (i 0) (i 1) (i 2)
def GO (q k v : S4x2048x1024.Idx → EReal) : S4x2048x1024.Idx → EReal :=
  fun i => outv (byCoords q) (byCoords k) (byCoords v) (i 0) (i 1) (i 2)

theorem hz3 : (![0, 0, 0] : Fin 3 → Nat) = fun _ => 0 := funext fun a => by fin_cases a <;> rfl

/-- The printed index maps over the 32 points: point t is batch t / 8, query block t % 8; the key and value windows
    hold the whole batch. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0
    ∧ win1_4.index t (0 : Fin 3) = t.val / 8 ∧ win1_4.index t (1 : Fin 3) = t.val % 8 ∧ win1_4.index t (2 : Fin 3) = 0 :=
  (by decide +kernel : ∀ t : Fin grid1.N, _)

/-! ## The input blocks, read where the point says -/

/-- The query block at point t, at (z, r, d): row 256 (t % 8) + r of batch t / 8 of q. -/
theorem q_block (c : Dev nD) (t : Fin cfg1.N) (ht : t.val < 32) (z : Fin 1) (r : Fin 256) (d : Fin 1024) :
    iblk1 V c 0 t (ix3 z r d)
      = V c main_v4 (ix3 (⟨t.val / 8, by omega⟩ : Fin 4) (⟨t.val % 8 * 256 + r.val, by have := r.isLt; omega⟩ : Fin 2048) d) := by
  show V c main_v4 (((cfg1.win 0).blk t).view.emb (ix3 z r d)) = _
  obtain ⟨e0, e1, e2, -⟩ := idx_facts t
  refine congrArg (V c main_v4) (funext fun a => Fin.ext ?_)
  match a with
  | ⟨0, _⟩ => show win1_0.index t (0 : Fin 3) * 1 + 1 * z.val = t.val / 8; have := z.isLt; omega
  | ⟨1, _⟩ => show win1_0.index t (1 : Fin 3) * 256 + 1 * r.val = t.val % 8 * 256 + r.val; omega
  | ⟨2, _⟩ => show win1_0.index t (2 : Fin 3) * 1024 + 1 * d.val = d.val; omega

/-- The key block at point t, at (z, j, d): row j of batch t / 8 of k. -/
theorem k_block (c : Dev nD) (t : Fin cfg1.N) (ht : t.val < 32) (z : Fin 1) (j : Fin 2048) (d : Fin 1024) :
    iblk1 V c 1 t (ix3 z j d) = V c main_v5 (ix3 (⟨t.val / 8, by omega⟩ : Fin 4) j d) := by
  show V c main_v5 (((cfg1.win 1).blk t).view.emb (ix3 z j d)) = _
  obtain ⟨-, -, -, e0, e1, e2, -⟩ := idx_facts t
  refine congrArg (V c main_v5) (funext fun a => Fin.ext ?_)
  match a with
  | ⟨0, _⟩ => show win1_1.index t (0 : Fin 3) * 1 + 1 * z.val = t.val / 8; have := z.isLt; omega
  | ⟨1, _⟩ => show win1_1.index t (1 : Fin 3) * 2048 + 1 * j.val = j.val; omega
  | ⟨2, _⟩ => show win1_1.index t (2 : Fin 3) * 1024 + 1 * d.val = d.val; omega

/-- The value block at point t, at (z, j, d): row j of batch t / 8 of v. -/
theorem v_block (c : Dev nD) (t : Fin cfg1.N) (ht : t.val < 32) (z : Fin 1) (j : Fin 2048) (d : Fin 1024) :
    iblk1 V c 2 t (ix3 z j d) = V c main_v6 (ix3 (⟨t.val / 8, by omega⟩ : Fin 4) j d) := by
  show V c main_v6 (((cfg1.win 2).blk t).view.emb (ix3 z j d)) = _
  obtain ⟨-, -, -, -, -, -, e0, e1, e2, -⟩ := idx_facts t
  refine congrArg (V c main_v6) (funext fun a => Fin.ext ?_)
  match a with
  | ⟨0, _⟩ => show win1_2.index t (0 : Fin 3) * 1 + 1 * z.val = t.val / 8; have := z.isLt; omega
  | ⟨1, _⟩ => show win1_2.index t (1 : Fin 3) * 2048 + 1 * j.val = j.val; omega
  | ⟨2, _⟩ => show win1_2.index t (2 : Fin 3) * 1024 + 1 * d.val = d.val; omega

/-! ## The body's values over blocks that are rows of q, k, v -/

/-- If the body's query block is rows 256 u .. of batch b of q and its key block is batch b of k, the stored weight at
    the block index y is the weights array at the array index i with i = (b, 256 u + y 1, y 2). -/
theorem weights_at (q k : S4x2048x1024.Idx → EReal) (x0 : Vec Ideal S1x256x1024 .bf16) (x1 : Vec Ideal S1x2048x1024 .bf16)
    (b : Fin 4) (u : Nat) (hu : u < 8)
    (h0 : ∀ (z : Fin 1) (r : Fin 256) (d : Fin 1024), x0 (ix3 z r d) = q (ix3 b (⟨u * 256 + r.val, by have := r.isLt; omega⟩ : Fin 2048) d))
    (h1 : ∀ (z : Fin 1) (j : Fin 2048) (d : Fin 1024), x1 (ix3 z j d) = k (ix3 b j d))
    (y : S1x256x2048.Idx) (i : S4x2048x2048.Idx)
    (hi0 : (i 0).val = b.val) (hi1 : (i 1).val = u * 256 + (y 1).val) (hi2 : (i 2).val = (y 2).val) :
    k1_pay1 x0 x1 y = GW q k i := by
  obtain ⟨z, r, j, rfl⟩ : ∃ (z : Fin 1) (r : Fin 256) (j : Fin 2048), y = ix3 z r j := ⟨y 0, y 1, y 2, eq_ix3 y⟩
  have hi : i = ix3 b (⟨u * 256 + r.val, by have := r.isLt; omega⟩ : Fin 2048) j := funext fun a => Fin.ext (by
    match a with
    | ⟨0, _⟩ => exact hi0
    | ⟨1, _⟩ => exact hi1
    | ⟨2, _⟩ => exact hi2)
  rw [hi, AttnBody.pay1_apply]
  show _ = weight (byCoords q) (byCoords k) b (⟨u * 256 + r.val, _⟩ : Fin 2048) j
  unfold weight score byCoords
  refine congrArg (fun s => rowWeight s j) (funext fun j' => ?_)
  simp only [h0, h1]

/-- The same for the stored output, with the value block batch b of v. -/
theorem output_at (q k v : S4x2048x1024.Idx → EReal) (x0 : Vec Ideal S1x256x1024 .bf16) (x1 x2 : Vec Ideal S1x2048x1024 .bf16)
    (b : Fin 4) (u : Nat) (hu : u < 8)
    (h0 : ∀ (z : Fin 1) (r : Fin 256) (d : Fin 1024), x0 (ix3 z r d) = q (ix3 b (⟨u * 256 + r.val, by have := r.isLt; omega⟩ : Fin 2048) d))
    (h1 : ∀ (z : Fin 1) (j : Fin 2048) (d : Fin 1024), x1 (ix3 z j d) = k (ix3 b j d))
    (h2 : ∀ (z : Fin 1) (j : Fin 2048) (d : Fin 1024), x2 (ix3 z j d) = v (ix3 b j d))
    (y : S1x256x1024.Idx) (i : S4x2048x1024.Idx)
    (hi0 : (i 0).val = b.val) (hi1 : (i 1).val = u * 256 + (y 1).val) (hi2 : (i 2).val = (y 2).val) :
    k1_pay2 x0 x1 x2 y = GO q k v i := by
  obtain ⟨z, r, d, rfl⟩ : ∃ (z : Fin 1) (r : Fin 256) (d : Fin 1024), y = ix3 z r d := ⟨y 0, y 1, y 2, eq_ix3 y⟩
  have hi : i = ix3 b (⟨u * 256 + r.val, by have := r.isLt; omega⟩ : Fin 2048) d := funext fun a => Fin.ext (by
    match a with
    | ⟨0, _⟩ => exact hi0
    | ⟨1, _⟩ => exact hi1
    | ⟨2, _⟩ => exact hi2)
  rw [hi, AttnBody.pay2_apply]
  show _ = outv (byCoords q) (byCoords k) (byCoords v) b (⟨u * 256 + r.val, _⟩ : Fin 2048) d
  unfold outv weight score byCoords
  refine Finset.sum_congr rfl fun j _ => ?_
  rw [h2]
  refine congrArg (fun s => rowWeight s j * v (ix3 b j d)) (funext fun j' => ?_)
  simp only [h0, h1]

/-! ## What a point writes back -/

/-- Point t writes back its block of the weights array. -/
theorem flushed4_eq (c : Dev nD) (t : Fin cfg1.N) :
    (dat1 V c).flushed 4 t = ((cfg1.win 4).blk t).view.read (Elt Ideal) (GW (V c main_v4) (V c main_v5)) := by
  have ht : t.val < 32 := t.isLt
  show (cfg1.win 4).cut (grid1.coords t) ((dat1 V c).after 4 t) = _
  rw [after1_4]
  unfold out1_4
  rw [View.canon_unit_zero hz3]
  simp only [View.ld_unit_zero (S := S1x256x1024) hz3, View.ld_unit_zero (S := S1x2048x1024) hz3]
  obtain ⟨-, -, -, -, -, -, -, -, -, -, -, -, e0, e1, e2⟩ := idx_facts t
  funext y
  show k1_pay1 (iblk1 V c 0 t) (iblk1 V c 1 t) y = GW (V c main_v4) (V c main_v5) (((cfg1.win 4).blk t).view.emb y)
  refine weights_at (V c main_v4) (V c main_v5) (iblk1 V c 0 t) (iblk1 V c 1 t) (⟨t.val / 8, by omega⟩ : Fin 4) (t.val % 8) (by omega)
    (q_block V c t ht) (k_block V c t ht) y _ ?_ ?_ ?_
  · show win1_4.index t (0 : Fin 3) * 1 + 1 * (y 0).val = t.val / 8
    have hy : (y 0).val < 1 := (y 0).isLt
    omega
  · show win1_4.index t (1 : Fin 3) * 256 + 1 * (y 1).val = t.val % 8 * 256 + (y 1).val
    omega
  · show win1_4.index t (2 : Fin 3) * 2048 + 1 * (y 2).val = (y 2).val
    omega

/-- Point t writes back its block of the output array. -/
theorem flushed3_eq (c : Dev nD) (t : Fin cfg1.N) :
    (dat1 V c).flushed 3 t = ((cfg1.win 3).blk t).view.read (Elt Ideal) (GO (V c main_v4) (V c main_v5) (V c main_v6)) := by
  have ht : t.val < 32 := t.isLt
  show (cfg1.win 3).cut (grid1.coords t) ((dat1 V c).after 3 t) = _
  rw [after1_3]
  unfold out1_3
  rw [View.canon_unit_zero hz3]
  simp only [View.ld_unit_zero (S := S1x256x1024) hz3, View.ld_unit_zero (S := S1x2048x1024) hz3]
  obtain ⟨-, -, -, -, -, -, -, -, -, e0, e1, e2, -⟩ := idx_facts t
  funext y
  show k1_pay2 (iblk1 V c 0 t) (iblk1 V c 1 t) (iblk1 V c 2 t) y = GO (V c main_v4) (V c main_v5) (V c main_v6) (((cfg1.win 3).blk t).view.emb y)
  refine output_at (V c main_v4) (V c main_v5) (V c main_v6) (iblk1 V c 0 t) (iblk1 V c 1 t) (iblk1 V c 2 t) (⟨t.val / 8, by omega⟩ : Fin 4) (t.val % 8) (by omega)
    (q_block V c t ht) (k_block V c t ht) (v_block V c t ht) y _ ?_ ?_ ?_
  · show win1_3.index t (0 : Fin 3) * 1 + 1 * (y 0).val = t.val / 8
    have hy : (y 0).val < 1 := (y 0).isLt
    omega
  · show win1_3.index t (1 : Fin 3) * 256 + 1 * (y 1).val = t.val % 8 * 256 + (y 1).val
    omega
  · show win1_3.index t (2 : Fin 3) * 1024 + 1 * (y 2).val = (y 2).val
    omega

/-! ## The blocks tile the outputs -/

theorem mem_blk4 (t : Fin cfg1.N) (i : S4x2048x2048.Idx) :
    i ∈ ((cfg1.win 4).blk t).view.set ↔ ∀ a : Fin 3, win1_4.index t a * S1x256x2048.size a ≤ (i a).val ∧ (i a).val < win1_4.index t a * S1x256x2048.size a + S1x256x2048.size a := by
  show i ∈ ((View.whole main_v7_1).slice (win1_4.rect t)).set ↔ _
  rw [View.set_slice_whole, Rect.mem_set_unit]
  exact Iff.rfl

theorem mem_blk3 (t : Fin cfg1.N) (i : S4x2048x1024.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v7_0).slice (win1_3.rect t)).set ↔ _
  rw [View.set_slice_whole, Rect.mem_set_unit]
  exact Iff.rfl

/-- Row i 1 of batch i 0 is in the block of point 8 (i 0) + (i 1) / 256. -/
theorem cover4 (i : S4x2048x2048.Idx) : ∃ t : Fin cfg1.N, (cfg1.win 4).flush t = true ∧ i ∈ ((cfg1.win 4).blk t).view.set := by
  have h0 : (i 0).val < 4 := (i 0).isLt
  have h1 : (i 1).val < 2048 := (i 1).isLt
  have h2 : (i 2).val < 2048 := (i 2).isLt
  refine ⟨(⟨(i 0).val * 8 + (i 1).val / 256, by show _ < 32; omega⟩ : Fin cfg1.N), flush1_4 _, ?_⟩
  rw [mem_blk4]
  obtain ⟨-, -, -, -, -, -, -, -, -, -, -, -, e0, e1, e2⟩ := idx_facts (⟨(i 0).val * 8 + (i 1).val / 256, by show _ < 32; omega⟩ : Fin cfg1.N)
  intro a
  match a with
  | ⟨0, _⟩ =>
    show win1_4.index _ (0 : Fin 3) * 1 ≤ (i 0).val ∧ (i 0).val < win1_4.index _ (0 : Fin 3) * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_4.index _ (1 : Fin 3) * 256 ≤ (i 1).val ∧ (i 1).val < win1_4.index _ (1 : Fin 3) * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_4.index _ (2 : Fin 3) * 2048 ≤ (i 2).val ∧ (i 2).val < win1_4.index _ (2 : Fin 3) * 2048 + 2048
    rw [e2]; omega

theorem cover3 (i : S4x2048x1024.Idx) : ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  refine ⟨(⟨(i 0).val * 8 + (i 1).val / 256, by show _ < 32; omega⟩ : Fin cfg1.N), flush1_3 _, ?_⟩
  rw [mem_blk3]
  obtain ⟨-, -, -, -, -, -, -, -, -, e0, e1, e2, -⟩ := idx_facts (⟨(i 0).val * 8 + (i 1).val / 256, by show _ < 32; omega⟩ : Fin cfg1.N)
  intro a
  match a with
  | ⟨0, _⟩ =>
    show win1_3.index _ (0 : Fin 3) * 1 ≤ (i 0).val ∧ (i 0).val < win1_3.index _ (0 : Fin 3) * 1 + 1
    rw [e0]; show ((i 0).val * 8 + (i 1).val / 256) / 8 * 1 ≤ (i 0).val ∧ (i 0).val < ((i 0).val * 8 + (i 1).val / 256) / 8 * 1 + 1; omega
  | ⟨1, _⟩ =>
    show win1_3.index _ (1 : Fin 3) * 256 ≤ (i 1).val ∧ (i 1).val < win1_3.index _ (1 : Fin 3) * 256 + 256
    rw [e1]; show ((i 0).val * 8 + (i 1).val / 256) % 8 * 256 ≤ (i 1).val ∧ (i 1).val < ((i 0).val * 8 + (i 1).val / 256) % 8 * 256 + 256; omega
  | ⟨2, _⟩ =>
    show win1_3.index _ (2 : Fin 3) * 1024 ≤ (i 2).val ∧ (i 2).val < win1_3.index _ (2 : Fin 3) * 1024 + 1024
    rw [e2]; omega

/-! ## The two arrays when the launch ends -/

theorem weights_final (c : Dev nD) : (dat1 V c).arrAt 4 cfg1.N = GW (V c main_v4) (V c main_v5) :=
  (dat1 V c).arrAt_eq_of_cover 4 (GW (V c main_v4) (V c main_v5)) (fun t _ => flushed4_eq V c t) cover4

theorem output_final (c : Dev nD) : (dat1 V c).arrAt 3 cfg1.N = GO (V c main_v4) (V c main_v5) (V c main_v6) :=
  (dat1 V c).arrAt_eq_of_cover 3 (GO (V c main_v4) (V c main_v5) (V c main_v6)) (fun t _ => flushed3_eq V c t) cover3

end Cert.KernelIdeal.AttnRegion

end
-- ==== Proof.KernelValue.lean ====
/-
  The kernel program's two results as functions of its three arguments.

  Between the launch memory and the results lie: a change of float format of W (the identity on the extended reals), a
  view of the bias as a row [1, 3072] and of x as [8192, 1024] rows; the projection launch, whose three outputs are the
  projections with offsets 0, 1024, 2048 over those rows; a view of each output back as [4, 2048, 1024]; and the
  attention launch, whose outputs are the weights and the output of the three arrays it finds. A reshape keeps the
  row-major position, so row 2048 b + s of the [8192, 1024] view is row (b, s), and the three arrays the attention
  launch finds are q, k, v of the specification. Hence the two result buffers end at the specification's output and
  weights of the launch memory's arguments.
-/
import proofs.«180135_j3083786519245_2_alg».proof.Proof.KernelRun
import proofs.«180135_j3083786519245_2_alg».proof.Proof.ProjRegion
import proofs.«180135_j3083786519245_2_alg».proof.Proof.AttnRegion
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.AttnSpec
open Cert.KernelIdeal.ProjRegion (GP GP_ix2)
open Cert.KernelIdeal.AttnRegion (GW GO byCoords)

/-! ## Reshapes read at an index -/

/-- A projection over the [8192, 1024] view of x, the row view of the bias and W in the narrower format, viewed back as
    [4, 2048, 1024], is the specification's projection: the views keep the row-major position. -/
theorem reshaped_proj (off : Nat) (hoff : off + 1024 ≤ 3072) (x : FVec Ideal S4x2048x1024 .f32) (W : FVec Ideal S3072x1024 .f32)
    (bias : FVec Ideal S3072 .f32) (hx : S4x2048x1024.ShapeCasts S8192x1024) (hb : S3072.ShapeCasts S1x3072)
    (hq : S8192x1024.ShapeCasts S4x2048x1024) (hbits : FTy.bf16.bits < FTy.f32.bits) :
    byCoords (shapeCast S4x2048x1024 (GP off hoff (shapeCast S8192x1024 x hx) (truncf .bf16 W hbits) (shapeCast S1x3072 bias hb)) hq)
      = proj off hoff x W bias := by
  funext b s o
  have hs : b.val * 2048 + s.val < 8192 := by have := b.isLt; have := s.isLt; omega
  show shapeCast S4x2048x1024 (GP off hoff (shapeCast S8192x1024 x hx) (truncf .bf16 W hbits) (shapeCast S1x3072 bias hb)) hq (ix3 b s o) = _
  rw [shapeCast_apply _ hq (ix3 b s o) (ix2 (⟨b.val * 2048 + s.val, hs⟩ : Fin 8192) o)
    (by rw [Shape.rowMajor_val_two, Shape.rowMajor_val_three]; rfl), GP_ix2]
  unfold proj
  refine congrArg₂ (· + ·) (Finset.sum_congr rfl fun d _ => ?_) ?_
  · rw [shapeCast_apply x hx (ix2 (⟨b.val * 2048 + s.val, hs⟩ : Fin 8192) d) (ix3 b s d)
      (by rw [Shape.rowMajor_val_two, Shape.rowMajor_val_three]; rfl), truncf_apply]
  · exact shapeCast_apply bias hb (ix2 (0 : Fin 1) (⟨off + o.val, by have := o.isLt; omega⟩ : Fin 3072)) (ix1 (⟨off + o.val, by have := o.isLt; omega⟩ : Fin 3072))
      (by rw [Shape.rowMajor_val_one, Shape.rowMajor_val_two]; show off + o.val = 0 * 3072 + (off + o.val); omega)

variable (m : (ℓ : Loc nD τ sig) → Buf (Elt Ideal) ℓ) (ρ : Dev nD → PrngReg)

/-! ## The arrays each launch finds -/

/-- The projection launch finds x viewed as [8192, 1024] rows, W in the narrower format, and the bias as a row. -/
theorem found_x (c : Dev nD) : (V1 m ρ c main_v2 : S8192x1024.Idx → EReal)
    = shapeCast S8192x1024 (m ((c.tc : Thread nD τ).loc main_arg0)) Facts₀.shapeCasts_S4x2048x1024_S8192x1024 := by
  show StableHlo.after hostOps0 (W0 m ρ c) (Proc.devRef .tc main_v2) = _
  after_results <;> rfl
theorem found_W (c : Dev nD) : (V1 m ρ c main_v0 : S3072x1024.Idx → EReal)
    = (truncf (F := Ideal) .bf16 (m ((c.tc : Thread nD τ).loc main_arg1) : FVec Ideal S3072x1024 .f32) Facts₀.bitsLt_bf16_f32 : FVec Ideal S3072x1024 .bf16) := by
  show StableHlo.after hostOps0 (W0 m ρ c) (Proc.devRef .tc main_v0) = _
  after_results <;> rfl
theorem found_bias (c : Dev nD) : (V1 m ρ c main_v1 : S1x3072.Idx → EReal)
    = shapeCast S1x3072 (m ((c.tc : Thread nD τ).loc main_arg2)) Facts₀.shapeCasts_S3072_S1x3072 := by
  show StableHlo.after hostOps0 (W0 m ρ c) (Proc.devRef .tc main_v1) = _
  after_results <;> rfl

/-- The attention launch finds the projection launch's three outputs viewed as [4, 2048, 1024]. -/
theorem found_q (c : Dev nD) : (V3 m ρ c main_v4 : S4x2048x1024.Idx → EReal)
    = shapeCast S4x2048x1024 (V2 m ρ c main_v3_0) Facts₀.shapeCasts_S8192x1024_S4x2048x1024 := by
  show StableHlo.after hostOps1 (W2 m ρ c) (Proc.devRef .tc main_v4) = _
  after_results <;> rfl
theorem found_k (c : Dev nD) : (V3 m ρ c main_v5 : S4x2048x1024.Idx → EReal)
    = shapeCast S4x2048x1024 (V2 m ρ c main_v3_1) Facts₀.shapeCasts_S8192x1024_S4x2048x1024 := by
  show StableHlo.after hostOps1 (W2 m ρ c) (Proc.devRef .tc main_v5) = _
  after_results <;> rfl
theorem found_v (c : Dev nD) : (V3 m ρ c main_v6 : S4x2048x1024.Idx → EReal)
    = shapeCast S4x2048x1024 (V2 m ρ c main_v3_2) Facts₀.shapeCasts_S8192x1024_S4x2048x1024 := by
  show StableHlo.after hostOps1 (W2 m ρ c) (Proc.devRef .tc main_v6) = _
  after_results <;> rfl

/-! ## q, k, v -/

/-- The first array the attention launch finds is q of the arguments. -/
theorem q_is (c : Dev nD) : byCoords (V3 m ρ c main_v4)
    = qOf (m ((c.tc : Thread nD τ).loc main_arg0)) (m ((c.tc : Thread nD τ).loc main_arg1)) (m ((c.tc : Thread nD τ).loc main_arg2)) := by
  have e1 := found_q m ρ c
  have e2 : V2 m ρ c main_v3_0 = (dat0 (V1 m ρ) c).arrAt 3 cfg0.N := (hF0 m ρ c 3).symm
  have e3 := ProjRegion.final3 (V1 m ρ) c
  have e4 := found_x m ρ c
  have e5 := found_W m ρ c
  have e6 := found_bias m ρ c
  rw [e1, e2, e3, e4, e5, e6]
  exact reshaped_proj 0 (by norm_num) _ _ _ _ _ _ _

/-- The second is k. -/
theorem k_is (c : Dev nD) : byCoords (V3 m ρ c main_v5)
    = kOf (m ((c.tc : Thread nD τ).loc main_arg0)) (m ((c.tc : Thread nD τ).loc main_arg1)) (m ((c.tc : Thread nD τ).loc main_arg2)) := by
  have e1 := found_k m ρ c
  have e2 : V2 m ρ c main_v3_1 = (dat0 (V1 m ρ) c).arrAt 4 cfg0.N := (hF0 m ρ c 4).symm
  have e3 := ProjRegion.final4 (V1 m ρ) c
  have e4 := found_x m ρ c
  have e5 := found_W m ρ c
  have e6 := found_bias m ρ c
  rw [e1, e2, e3, e4, e5, e6]
  exact reshaped_proj 1024 (by norm_num) _ _ _ _ _ _ _

/-- The third is v. -/
theorem v_is (c : Dev nD) : byCoords (V3 m ρ c main_v6)
    = vOf (m ((c.tc : Thread nD τ).loc main_arg0)) (m ((c.tc : Thread nD τ).loc main_arg1)) (m ((c.tc : Thread nD τ).loc main_arg2)) := by
  have e1 := found_v m ρ c
  have e2 : V2 m ρ c main_v3_2 = (dat0 (V1 m ρ) c).arrAt 5 cfg0.N := (hF0 m ρ c 5).symm
  have e3 := ProjRegion.final5 (V1 m ρ) c
  have e4 := found_x m ρ c
  have e5 := found_W m ρ c
  have e6 := found_bias m ρ c
  rw [e1, e2, e3, e4, e5, e6]
  exact reshaped_proj 2048 (by norm_num) _ _ _ _ _ _ _

/-! ## The two results -/

/-- The output buffer ends at the specification's output of the arguments. -/
theorem output_is (c : Dev nD) : V4 m ρ c main_v7_0
    = output (m ((c.tc : Thread nD τ).loc main_arg0)) (m ((c.tc : Thread nD τ).loc main_arg1)) (m ((c.tc : Thread nD τ).loc main_arg2)) := by
  have e1 : V4 m ρ c main_v7_0 = (dat1 (V3 m ρ) c).arrAt 3 cfg1.N := (hF1 m ρ c 3).symm
  rw [e1, AttnRegion.output_final]
  funext i
  show outv (byCoords (V3 m ρ c main_v4)) (byCoords (V3 m ρ c main_v5)) (byCoords (V3 m ρ c main_v6)) (i 0) (i 1) (i 2) = _
  rw [q_is, k_is, v_is]
  rfl

/-- The weights buffer ends at the specification's weights of the arguments. -/
theorem weights_is (c : Dev nD) : V4 m ρ c main_v7_1
    = weights (m ((c.tc : Thread nD τ).loc main_arg0)) (m ((c.tc : Thread nD τ).loc main_arg1)) (m ((c.tc : Thread nD τ).loc main_arg2)) := by
  have e1 : V4 m ρ c main_v7_1 = (dat1 (V3 m ρ) c).arrAt 4 cfg1.N := (hF1 m ρ c 4).symm
  rw [e1, AttnRegion.weights_final]
  funext i
  show weight (byCoords (V3 m ρ c main_v4)) (byCoords (V3 m ρ c main_v5)) (i 0) (i 1) (i 2) = _
  rw [q_is, k_is]
  rfl

/-- Every weakly fair execution of the kernel program terminates, nothing faulting, with the two results at the
    specification's output and weights of the arguments and the arguments unchanged. -/
theorem run : θ_run defs (onTc (τ := τ) (main (F := Ideal))) ⟨m, fun _ => 0, ρ⟩ (fun r => ∀ c : Dev nD,
      r.2.mem ((c.tc : Thread nD τ).loc main_v7_0)
        = output (m ((c.tc : Thread nD τ).loc main_arg0)) (m ((c.tc : Thread nD τ).loc main_arg1)) (m ((c.tc : Thread nD τ).loc main_arg2))
      ∧ r.2.mem ((c.tc : Thread nD τ).loc main_v7_1)
        = weights (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (output_is m ρ c), (h c).2.1.trans (weights_is m ρ c), (h c).2.2⟩)
    (KRun.run_named m ρ)

end Cert.KernelIdeal.KValue

end
-- ==== Proof.RefValue.lean ====
/-
  The reference program computes the specification.

  Each stage of the reference is read at explicit coordinates (b, r, ·) and identified with the matching piece of the
  specification: the three slices of x·Wᵀ + bias are the projections q, k, v; the quotient of q·kᵀ by the word of 32 is
  the scaled score; the maximum-reduce along the key axis from the word of minus infinity, followed by one more maximum
  with that word, is the row maximum; the exponential of the score less that maximum is the row exponential; the sum
  from the zero word along the key axis is the row's sum of exponentials; their quotient is the weight; and the last
  contraction with v is the output. Nothing is evaluated: the float words stay words and every sum and fold stays a sum
  or fold over the same index set.
-/
import proofs.«180135_j3083786519245_2_alg».proof.Proof.Gen.ReferenceIdeal.Read
import proofs.«180135_j3083786519245_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.AttnSpec

/-- The three argument arrays' types. -/
abbrev TX : Type := (⟨S4x2048x1024, .f32⟩ : BufTy).Contents (Elt Ideal)
abbrev TW : Type := (⟨S3072x1024, .f32⟩ : BufTy).Contents (Elt Ideal)
abbrev TB : Type := (⟨S3072, .f32⟩ : BufTy).Contents (Elt Ideal)

/-! ## The projections -/

/-- x·Wᵀ + bias at (b, r, c): the dot product of row (b, r) of x with row c of W, plus entry c of the bias. -/
theorem v3_at (x : TX) (W : TW) (bias : TB) (b : Fin 4) (r : Fin 2048) (c : Fin 3072) :
    Read.val_main_v3 (F := Ideal) x W bias (ix3 b r c)
      = (∑ d : Fin 1024, x (ix3 b r d) * W (ix2 c d)) + bias (ix1 c) := by
  rw [Read.val_main_v3_apply, Read.val_main_v0_apply, Read.val_main_v2_apply, Read.val_main_v1_apply]
  simp only [Ideal.addf_def]
  refine congrArg₂ (· + ·) (Finset.sum_congr rfl fun d _ => congrArg₂ (· * ·) (congrArg x ?_) (congrArg W ?_)) (congrArg bias ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- x·Wᵀ + bias at column off + o is the projection with offset off at o. -/
theorem v3_proj (x : TX) (W : TW) (bias : TB) (off : Nat) (hoff : off + 1024 ≤ 3072) (b : Fin 4) (r : Fin 2048)
    (o : Fin 1024) (hlt : off + o.val < 3072) :
    Read.val_main_v3 (F := Ideal) x W bias (ix3 b r (⟨off + o.val, hlt⟩ : Fin 3072)) = proj off hoff x W bias b r o :=
  v3_at x W bias b r ⟨off + o.val, hlt⟩

/-- The first slice is q. -/
theorem v4_at (x : TX) (W : TW) (bias : TB) (b : Fin 4) (r : Fin 2048) (o : Fin 1024) :
    Read.val_main_v4 (F := Ideal) x W bias (ix3 b r o) = qOf x W bias b r o := by
  rw [Read.val_main_v4_apply]
  have e : Read.idx_main_v4 (ix3 b r o) = ix3 b r (⟨0 + o.val, by have := o.isLt; omega⟩ : Fin 3072) :=
    funext fun a => Fin.ext (by match a with | ⟨0, _⟩ => rfl | ⟨1, _⟩ => rfl | ⟨2, _⟩ => exact (Nat.zero_add _).symm)
  rw [e]
  exact v3_proj x W bias 0 (by norm_num) b r o _

/-- The second slice is k. -/
theorem v5_at (x : TX) (W : TW) (bias : TB) (b : Fin 4) (r : Fin 2048) (o : Fin 1024) :
    Read.val_main_v5 (F := Ideal) x W bias (ix3 b r o) = kOf x W bias b r o := by
  rw [Read.val_main_v5_apply]
  have e : Read.idx_main_v5 (ix3 b r o) = ix3 b r (⟨1024 + o.val, by have := o.isLt; omega⟩ : Fin 3072) :=
    funext fun a => Fin.ext (by match a with | ⟨0, _⟩ => rfl | ⟨1, _⟩ => rfl | ⟨2, _⟩ => rfl)
  rw [e]
  exact v3_proj x W bias 1024 (by norm_num) b r o _

/-- The third slice is v. -/
theorem v6_at (x : TX) (W : TW) (bias : TB) (b : Fin 4) (r : Fin 2048) (o : Fin 1024) :
    Read.val_main_v6 (F := Ideal) x W bias (ix3 b r o) = vOf x W bias b r o := by
  rw [Read.val_main_v6_apply]
  have e : Read.idx_main_v6 (ix3 b r o) = ix3 b r (⟨2048 + o.val, by have := o.isLt; omega⟩ : Fin 3072) :=
    funext fun a => Fin.ext (by match a with | ⟨0, _⟩ => rfl | ⟨1, _⟩ => rfl | ⟨2, _⟩ => rfl)
  rw [e]
  exact v3_proj x W bias 2048 (by norm_num) b r o _

/-! ## The scores -/

/-- q·kᵀ divided by the word of 32, at (b, r, j), is the scaled score of query row r against key row j. -/
theorem v9_at (x : TX) (W : TW) (bias : TB) (b : Fin 4) (r j : Fin 2048) :
    Read.val_main_v9 (F := Ideal) x W bias (ix3 b r j) = score (qOf x W bias) (kOf x W bias) b r j := by
  rw [Read.val_main_v9_apply, Read.val_main_v7_apply, Read.val_main_v8_apply, Read.val_main_cst_apply]
  simp only [Ideal.hostDivf_def, Ideal.ofBits_def]
  rw [div_32]
  refine congrArg (· * invScale) (Finset.sum_congr rfl fun d _ => ?_)
  have el : Read.lidx_main_v7 (ix3 b r j) d = ix3 b r d :=
    funext fun a => Fin.ext (by match a with | ⟨0, _⟩ => rfl | ⟨1, _⟩ => rfl | ⟨2, _⟩ => rfl)
  have er : Read.ridx_main_v7 (ix3 b r j) d = ix3 b j d :=
    funext fun a => Fin.ext (by match a with | ⟨0, _⟩ => rfl | ⟨1, _⟩ => rfl | ⟨2, _⟩ => rfl)
  rw [el, er, v4_at, v5_at]

/-! ## The row maximum -/

/-- The reduced index (b, r) with key row k put back on the last axis is (b, r, k). -/
theorem lift_ix3 (h : S4x2048x2048.Reduces [2] S4x2048) (b : Fin 4) (r : Fin 2048) (k : Fin (S4x2048x2048.size 2)) :
    h.lift (ix2 b r) k = ix3 b r (⟨k.val, k.isLt⟩ : Fin 2048) := by
  funext c; apply Fin.ext
  match c with
  | ⟨0, _⟩ => rfl
  | ⟨1, _⟩ => rfl
  | ⟨2, _⟩ => rfl

/-- The maximum-reduce of any array y along the last axis, from the word of minus infinity, at (b, r), is the row
    maximum of y (b, r, ·). -/
theorem reduce_max_at (y : S4x2048x2048.Idx → EReal) (b : Fin 4) (r : Fin 2048) :
    Host.reduce (FloatOps.maximumf (F := Ideal) (φ := .f32)) y (Read.val_main_cst_0 (F := Ideal))
        reducesTo_S4x2048x2048_S4x2048_d2 h_S_ (ix2 b r)
      = rowMax (fun j' : Fin 2048 => y (ix3 b r j')) := by
  have h : S4x2048x2048.Reduces [2] S4x2048 := by decide
  refine (Host.reduce_eq_fold_single (FloatOps.maximumf (F := Ideal) (φ := .f32)) y (Read.val_main_cst_0 (F := Ideal))
    reducesTo_S4x2048x2048_S4x2048_d2 h h_S_ (ix2 b r)).trans ?_
  have hf : (y ∘ h.lift (ix2 b r)) = fun j' : Fin 2048 => y (ix3 b r j') :=
    funext fun k => congrArg y (lift_ix3 h b r k)
  exact congrArg (fun f => Finset.fold max negInf f (Finset.univ : Finset (Fin 2048))) hf

/-- The maximum-reduce of the scores along the key axis, at (b, r), is the row maximum of the scores of query row r. -/
theorem v10_at (x : TX) (W : TW) (bias : TB) (b : Fin 4) (r : Fin 2048) :
    Read.val_main_v10 (F := Ideal) x W bias (ix2 b r)
      = rowMax (fun j' : Fin 2048 => score (qOf x W bias) (kOf x W bias) b r j') := by
  unfold Read.val_main_v10
  refine (reduce_max_at (Read.val_main_v9 (F := Ideal) x W bias) b r).trans ?_
  exact congrArg rowMax (funext fun j' => v9_at x W bias b r j')

/-- One more maximum with the word of minus infinity leaves the row maximum as it is. -/
theorem v12_at (x : TX) (W : TW) (bias : TB) (b : Fin 4) (r : Fin 2048) :
    Read.val_main_v12 (F := Ideal) x W bias (ix2 b r)
      = rowMax (fun j' : Fin 2048 => score (qOf x W bias) (kOf x W bias) b r j') := by
  rw [Read.val_main_v12_apply, v10_at, Read.val_main_v11_apply, Read.val_main_cst_1_apply]
  simp only [Ideal.maximumf_def, Ideal.ofBits_def]
  exact max_negInf_rowMax _

/-! ## The softmax -/

/-- The exponential of the score less the row maximum, at (b, r, j). -/
theorem v16_at (x : TX) (W : TW) (bias : TB) (b : Fin 4) (r j : Fin 2048) :
    Read.val_main_v16 (F := Ideal) x W bias (ix3 b r j)
      = rowExp (fun j' : Fin 2048 => score (qOf x W bias) (kOf x W bias) b r j') j := by
  rw [Read.val_main_v16_apply, Read.val_main_v15_apply, Read.val_main_v14_apply, Read.val_main_v13_apply]
  have e : Read.idx_main_v13 (Read.idx_main_v14 (ix3 b r j)) = ix2 b r :=
    funext fun a => Fin.ext (by match a with | ⟨0, _⟩ => rfl | ⟨1, _⟩ => rfl)
  rw [e, v9_at, v12_at]
  simp only [Ideal.hostUnary_exp_def, Ideal.subf_def]
  rfl

/-- The sum of the row's exponentials from the zero word, at (b, r). -/
theorem v17_at (x : TX) (W : TW) (bias : TB) (b : Fin 4) (r : Fin 2048) :
    Read.val_main_v17 (F := Ideal) x W bias (ix2 b r)
      = ∑ k : Fin 2048, rowExp (fun j' : Fin 2048 => score (qOf x W bias) (kOf x W bias) b r j') k := by
  rw [Read.val_main_v17_apply, Read.val_main_cst_2_apply]
  simp only [Ideal.ofBits_def]
  rw [zero_word_add]
  refine Finset.sum_congr rfl fun k _ => ?_
  have e : Read.idx_main_v17 (ix2 b r) k = ix3 b r k :=
    funext fun a => Fin.ext (by match a with | ⟨0, _⟩ => rfl | ⟨1, _⟩ => rfl | ⟨2, _⟩ => rfl)
  rw [e, v16_at]

/-- The quotient of the row exponential by the row's sum, at (b, r, j), is the attention weight. -/
theorem v20_at (x : TX) (W : TW) (bias : TB) (b : Fin 4) (r j : Fin 2048) :
    Read.val_main_v20 (F := Ideal) x W bias (ix3 b r j) = weight (qOf x W bias) (kOf x W bias) b r j := by
  rw [Read.val_main_v20_apply, Read.val_main_v19_apply, Read.val_main_v18_apply]
  have e : Read.idx_main_v18 (Read.idx_main_v19 (ix3 b r j)) = ix2 b r :=
    funext fun a => Fin.ext (by match a with | ⟨0, _⟩ => rfl | ⟨1, _⟩ => rfl)
  rw [e, v16_at, v17_at]
  simp only [Ideal.hostDivf_def]
  rfl

/-- The second result of the reference is the specification's array of weights. -/
theorem weights_eq (x : TX) (W : TW) (b : TB) :
    Read.val_main_v20 (F := Ideal) x W b = Cert.AttnSpec.weights x W b := by
  funext i
  obtain ⟨b', r, j, rfl⟩ : ∃ (b' : Fin 4) (r : Fin 2048) (j : Fin 2048), i = ix3 b' r j := ⟨i 0, i 1, i 2, eq_ix3 i⟩
  exact (v20_at x W b b' r j).trans (weights_ix3 x W b b' r j).symm

/-! ## The output -/

/-- The weights of query row r against the value rows, at (b, r, o). -/
theorem v21_at (x : TX) (W : TW) (bias : TB) (b : Fin 4) (r : Fin 2048) (o : Fin 1024) :
    Read.val_main_v21 (F := Ideal) x W bias (ix3 b r o)
      = outv (qOf x W bias) (kOf x W bias) (vOf x W bias) b r o := by
  rw [Read.val_main_v21_apply]
  refine Finset.sum_congr rfl fun k _ => ?_
  have el : Read.lidx_main_v21 (ix3 b r o) k = ix3 b r k :=
    funext fun a => Fin.ext (by match a with | ⟨0, _⟩ => rfl | ⟨1, _⟩ => rfl | ⟨2, _⟩ => rfl)
  have er : Read.ridx_main_v21 (ix3 b r o) k = ix3 b k o :=
    funext fun a => Fin.ext (by match a with | ⟨0, _⟩ => rfl | ⟨1, _⟩ => rfl | ⟨2, _⟩ => rfl)
  rw [el, er, v20_at, v6_at]

/-- The first result of the reference is the specification's output array. -/
theorem output_eq (x : TX) (W : TW) (b : TB) :
    Read.val_main_v21 (F := Ideal) x W b = Cert.AttnSpec.output x W b := by
  funext i
  obtain ⟨b', r, o, rfl⟩ : ∃ (b' : Fin 4) (r : Fin 2048) (o : Fin 1024), i = ix3 b' r o := ⟨i 0, i 1, i 2, eq_ix3 i⟩
  exact (v21_at x W b b' r o).trans (output_ix3 x W b b' r o).symm

/-! ## The run -/

/-- Every weakly fair run of the reference ends with its two results at the specification's output and weights of the
    arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = Cert.AttnSpec.output (m ((c.tc : Thread nD τ).loc main_arg0)) (m ((c.tc : Thread nD τ).loc main_arg1)) (m ((c.tc : Thread nD τ).loc main_arg2))
      ∧ r.2.mem ((c.tc : Thread nD τ).loc main_v20)
          = Cert.AttnSpec.weights (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((Read.val_main_v21_eq m c).trans (output_eq _ _ _)),
       (h c).2.1.trans ((Read.val_main_v20_eq m c).trans (weights_eq _ _ _)),
       (h c).2.2⟩)
    (Cert.ReferenceIdeal.Value.run (F := Ideal) m ρ)

end Cert.ReferenceIdeal.RefValue

end
-- ==== Proof.lean ====
/-
  The certificate of a projection-and-attention kernel against its jnp reference, on the extended reals.

  Both programs take x : [4, 2048, 1024], W : [3072, 1024] and a bias : [3072] and return the attention output
  [4, 2048, 1024] and the attention weights [4, 2048, 2048]. The specification (Proof/Spec.lean) states both as
  functions of the arguments: q, k, v are x times the transpose of a third of W plus the matching third of the bias;
  the score of query row i against key row j is their dot product times 2^-5; the weights are the softmax of each
  row of scores; the output is the weights times v.

  The kernel program computes them in two launches: one writes q, k, v block by block of 512 rows, the other writes
  the weights and the output block by block of 256 query rows, holding all the keys and values of the batch
  (Proof/ProjBody.lean, Proof/ProjRegion.lean, Proof/AttnBody.lean, Proof/AttnRegion.lean, and Proof/KernelValue.lean
  for the reshapes between them). The reference computes them on whole arrays, dividing by 32 where the kernel
  multiplies by 2^-5 and taking one more maximum with minus infinity (Proof/RefValue.lean). On the extended reals these
  are the same functions of the arguments, with no finiteness needed: a quotient by 32 is the product with 1/32 at every
  extended real, and every sum and maximum is over the same index set on both sides.

  The three frames: the two kernel programs' are the generated ones, the reference's is its run with the results
  dropped. The idealization rewrote nothing, so its claim is trivial.
-/
import proofs.«180135_j3083786519245_2_alg».proof.Defs
import proofs.«180135_j3083786519245_2_alg».proof.Proof.Gen.Kernel
import proofs.«180135_j3083786519245_2_alg».proof.Proof.Gen.Kernel.Skeleton
import proofs.«180135_j3083786519245_2_alg».proof.Proof.Gen.Kernel.Launch
import proofs.«180135_j3083786519245_2_alg».proof.Proof.Gen.Kernel.Points
import proofs.«180135_j3083786519245_2_alg».proof.Proof.Gen.Kernel.Frame
import proofs.«180135_j3083786519245_2_alg».proof.Proof.Gen.KernelIdeal
import proofs.«180135_j3083786519245_2_alg».proof.Proof.Gen.KernelIdeal.Skeleton
import proofs.«180135_j3083786519245_2_alg».proof.Proof.Gen.KernelIdeal.Launch
import proofs.«180135_j3083786519245_2_alg».proof.Proof.Gen.KernelIdeal.Points
import proofs.«180135_j3083786519245_2_alg».proof.Proof.Gen.KernelIdeal.Frame
import proofs.«180135_j3083786519245_2_alg».proof.Proof.Gen.ReferenceIdeal
import proofs.«180135_j3083786519245_2_alg».proof.Proof.Gen.Pre_finite_inputs
import proofs.«180135_j3083786519245_2_alg».proof.Proof.Gen.ReferenceIdeal.Run
import proofs.«180135_j3083786519245_2_alg».proof.Proof.Gen.ReferenceIdeal.Read
import proofs.«180135_j3083786519245_2_alg».proof.Proof.KernelValue
import proofs.«180135_j3083786519245_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with their two results at the specification's output and weights of the arguments, and the
    arguments agree. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun _ h c => ?_) (Cert.ReferenceIdeal.RefValue.run m' ρ')
  obtain ⟨h1, h2, h3⟩ := h c
  obtain ⟨a0, a1, a2⟩ := hagree c
  refine ⟨h1.trans ?_, h2.trans ?_, h3⟩
  · rw [a0, a1, a2]
  · rw [a0, a1, a2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
